-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x256 : Shape := ⟨2, ![256, 256]⟩
abbrev S256 : Shape := ⟨1, ![256]⟩
abbrev S256x512 : Shape := ⟨2, ![256, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  main_v53

def fn_part2 {F : FTy → Type} [FloatOps F] (main_arg7 : FVec F S256x512 .f32) (main_arg8 : FVec F S256 .f32) (main_arg9 : FVec F S256x512 .f32) (main_arg10 : FVec F S256x512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_v48 main_v49 main_v50

def fn_part1 {F : FTy → Type} [FloatOps F] (main_arg4 : FVec F S16384x256 .f32) (main_arg5 : FVec F S256x256 .f32) (main_arg6 : FVec F S256 .f32) (main_arg7 : FVec F S256x512 .f32) (main_arg8 : FVec F S256 .f32) (main_arg9 : FVec F S256x512 .f32) (main_arg10 : FVec F S256x512 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S16384x256 .f32 := Host.absf main_arg4
  let main_cst_6 : FVec F S_ .f32 := constant S_ .f32 0x7F800000#32
  let main_v20 : FVec F S16384x256 .f32 := broadcastInDim S16384x256 ![] bcast_S_S16384x256 main_cst_6
  let main_v21 : IVec S16384x256 1 := cmpf .olt main_v19 main_v20
  let main_c_7 : IVec S_ 1 := constantI S_ 1 1#1
  let main_v22 : IVec S_ 1 := (fun x v => Host.reduce IntOp.andi x v reducesTo_S16384x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x256 .f32) (main_arg1 : FVec F S16384x256 .f32) (main_arg2 : FVec F S16384x256 .f32) (main_arg3 : FVec F S16384x256 .f32) (main_arg4 : FVec F S16384x256 .f32) (main_arg5 : FVec F S256x256 .f32) (main_arg6 : FVec F S256 .f32) (main_arg7 : FVec F S256x512 .f32) (main_arg8 : FVec F S256 .f32) (main_arg9 : FVec F S256x512 .f32) (main_arg10 : FVec F S256x512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_arg7 main_arg8 main_arg9 main_arg10 main_v13 main_v16
-- ==== Kernel.lean ====
abbrev S16384x256 : Shape := ⟨2, ![16384, 256]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S1024x256 : Shape := ⟨2, ![1024, 256]⟩

abbrev nBuf : Space → Nat
  | .hbm => 37
  | .vmem => 27
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256x512, .f32⟩
  | .hbm, ⟨11, _⟩ => ⟨S256x256, .f32⟩
  | .hbm, ⟨12, _⟩ => ⟨S256x256, .bf16⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S256x256, .f32⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .f32⟩
  | .hbm, ⟨21, _⟩ => ⟨S256x256, .bf16⟩
  | .hbm, ⟨22, _⟩ => ⟨S256x256, .f32⟩
  | .hbm, ⟨23, _⟩ => ⟨S256x256, .f32⟩
  | .hbm, ⟨24, _⟩ => ⟨S256x256, .bf16⟩
  | .hbm, ⟨25, _⟩ => ⟨S256x256, .f32⟩
  | .hbm, ⟨26, _⟩ => ⟨S256x256, .f32⟩
  | .hbm, ⟨27, _⟩ => ⟨S256x256, .bf16⟩
  | .hbm, ⟨28, _⟩ => ⟨S256x256, .f32⟩
  | .hbm, ⟨29, _⟩ => ⟨S256x256, .f32⟩
  | .hbm, ⟨30, _⟩ => ⟨S256x256, .bf16⟩
  | .hbm, ⟨31, _⟩ => ⟨S1x256, .f32⟩
  | .hbm, ⟨32, _⟩ => ⟨S1x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S1x256, .f32⟩
  | .local _ .vmem, ⟨18, _⟩ => ⟨S1x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S256x256_S256x256_1_0 : S256x256.Transposes [1, 0] S256x256
  bitsLt_bf16_f32 : FTy.bits .bf16 < FTy.bits .f32
  slices_S256x512_S256x256_0_0 : S256x512.Slices ![0, 0] S256x256
  slices_S256x512_S256x256_0_256 : S256x512.Slices ![0, 256] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S16384x256.size a
  hwx0_14 : ∀ i : grid0.Coords, EltTy.bits .f32 = 32 ∨ (Rect.block (s := S16384x256) S1024x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S16384x256.size a
  hwx0_15 : ∀ i : grid0.Coords, EltTy.bits .f32 = 32 ∨ (Rect.block (s := S16384x256) S1024x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x256.size a ≤ S16384x256.size a
  hwx0_16 : ∀ i : grid0.Coords, EltTy.bits .f32 = 32 ∨ (Rect.block (s := S16384x256) S1024x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x256.size a ≤ S16384x256.size a
  hwx0_17 : ∀ i : grid0.Coords, EltTy.bits .f32 = 32 ∨ (Rect.block (s := S16384x256) S1024x256.size (cc0_transform_17 i) (hinb0_17 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22_0) S1024x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v22_1) S1024x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v22_2) S1024x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v22_3) S1024x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x256 : Shape := ⟨2, ![256, 256]⟩
abbrev S256 : Shape := ⟨1, ![256]⟩
abbrev S256x512 : Shape := ⟨2, ![256, 512]⟩
abbrev S16384x512 : Shape := ⟨2, ![16384, 512]⟩
abbrev S1x256 : Shape := ⟨2, ![1, 256]⟩
abbrev S512x256 : Shape := ⟨2, ![512, 256]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256x512, .f32⟩
  | .hbm, ⟨11, _⟩ => ⟨S16384x512, .f32⟩
  | .hbm, ⟨12, _⟩ => ⟨S256x256, .f32⟩
  | .hbm, ⟨13, _⟩ => ⟨S16384x256, .f32⟩
  | .hbm, ⟨14, _⟩ => ⟨S1x256, .f32⟩
  | .hbm, ⟨15, _⟩ => ⟨S16384x256, .f32⟩
  | .hbm, ⟨16, _⟩ => ⟨S16384x256, .f32⟩
  | .hbm, ⟨17, _⟩ => ⟨S512x256, .f32⟩
  | .hbm, ⟨18, _⟩ => ⟨S16384x256, .f32⟩
  | .hbm, ⟨19, _⟩ => ⟨S1x256, .f32⟩
  | .hbm, ⟨20, _⟩ => ⟨S16384x256, .f32⟩
  | .hbm, ⟨21, _⟩ => ⟨S16384x256, .f32⟩
  | .hbm, ⟨22, _⟩ => ⟨S512x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S512x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  concatenates_S16384x256_S16384x256_S16384x512_d1 : Shape.Concatenates [S16384x256, S16384x256] S16384x512 1
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S256x512_S512x256_1_0 : S256x512.Transposes [1, 0] S512x256
  bcast_S_S16384x256 : S_.BroadcastsInDim S16384x256 (![] : Fin 0 → Fin S16384x256.rank)
  dot_S16384x256_S256x256_S16384x256_1_0_0_1_n_n_wf : DotDims.WF S16384x256 S256x256 S16384x256 [1] [0] [0] [1] [] []
  dot_S16384x512_S512x256_S16384x256_1_0_0_1_n_n_wf : DotDims.WF S16384x512 S512x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.Spec.lean ====
/-
  One step of a recurrent weighted-average cell, applied to each of 16384 rows independently, as functions of the
  eleven argument arrays on the extended reals.

  For a row r and a column c, with xh the row [x(r,·) | h(r,·)] of length 512:

      u = x(r,·)·Wu(c,·) + bu(c)                  g = xh·Wg(c,·) + bg(c)
      a = xh·Wa(c,·)                              p = xh·Wd(c,·)
      e = exp(−σ(p))         with σ(p) = 1 / (1 + exp(−p))
      M = max(amax(r,c)·e, a)
      N = n(r,c)·e·exp(amax(r,c) − M) + u·tanh(g)·exp(a − M)
      D = d(r,c)·e·exp(amax(r,c) − M) + exp(a − M)
      H = tanh(N / D)

  and the four results are N, D, H and M. A product xh·W(c,·) over the 512 joined columns is written here as the sum of its
  two halves, x(r,·) against the first 256 columns of W(c,·) and h(r,·) against the last 256: addition of extended reals is
  commutative and associative, so a sum over 512 indices is the sum of its two halves (`sum_halves`), and no finiteness is
  needed anywhere.
-/
import Idealize.ShloMosaic.PureOps.Ideal
import Idealize.ShloMosaic.Lib.ValueIdx

noncomputable section

open scoped BigOperators

namespace Cert.Rwa

open Idealize.ShloMosaic Idealize.ShloMosaic.ValueIdx

/-- A matrix of extended reals with `n` rows and `k` columns. -/
abbrev Mat (n k : ℕ) : Type := (⟨2, ![n, k]⟩ : Shape).Idx → EReal
/-- A vector of `n` extended reals. -/
abbrev Row (n : ℕ) : Type := (⟨1, ![n]⟩ : Shape).Idx → EReal

/-! ## One cell -/

/-- e = exp(−σ(p)): the factor by which the running quantities decay. -/
def decay (p : EReal) : EReal := Ideal.exp (-(Ideal.logistic p))

/-- M = max(amax·e, a): the new running maximum. -/
def cellMax (am p a : EReal) : EReal := max (am * decay p) a

/-- N = n·e·exp(amax − M) + u·tanh(g)·exp(a − M): the new numerator. -/
def cellNum (n am u g a p : EReal) : EReal :=
  n * decay p * Ideal.exp (am - cellMax am p a) + u * Ideal.tanh g * Ideal.exp (a - cellMax am p a)

/-- D = d·e·exp(amax − M) + exp(a − M): the new denominator. -/
def cellDen (d am a p : EReal) : EReal :=
  d * decay p * Ideal.exp (am - cellMax am p a) + Ideal.exp (a - cellMax am p a)

/-- H = tanh(N / D): the new hidden value. -/
def cellHid (n d am u g a p : EReal) : EReal := Ideal.tanh (Ideal.div (cellNum n am u g a p) (cellDen d am a p))

/-! ## The four linear maps -/

/-- Column `k` of the first half of a row of 512. -/
def lo (k : Fin 256) : Fin 512 := ⟨k.val, Nat.lt_trans k.isLt (by norm_num)⟩
/-- Column `k` of the second half of a row of 512. -/
def hi (k : Fin 256) : Fin 512 := ⟨256 + k.val, by have := k.isLt; omega⟩

/-- u(r,c) = x(r,·)·Wu(c,·) + bu(c). -/
def preU (x : Mat 16384 256) (Wu : Mat 256 256) (bu : Row 256) (r : Fin 16384) (c : Fin 256) : EReal :=
  (∑ k : Fin 256, x (ix2 r k) * Wu (ix2 c k)) + bu (ix1 c)

/-- [x(r,·) | h(r,·)]·W(c,·), as the sum of its two halves. -/
def joint (x h : Mat 16384 256) (W : Mat 256 512) (r : Fin 16384) (c : Fin 256) : EReal :=
  (∑ k : Fin 256, x (ix2 r k) * W (ix2 c (lo k))) + (∑ k : Fin 256, h (ix2 r k) * W (ix2 c (hi k)))

/-- g(r,c) = [x(r,·) | h(r,·)]·Wg(c,·) + bg(c). -/
def preG (x h : Mat 16384 256) (Wg : Mat 256 512) (bg : Row 256) (r : Fin 16384) (c : Fin 256) : EReal :=
  joint x h Wg r c + bg (ix1 c)

/-! ## The four results, as whole arrays -/

/-- The new running maximum M. -/
def outMax (x h am : Mat 16384 256) (Wa Wd : Mat 256 512) : Mat 16384 256 := fun i =>
  cellMax (am i) (joint x h Wd (i 0) (i 1)) (joint x h Wa (i 0) (i 1))

/-- The new numerator N. -/
def outNum (x n h am : Mat 16384 256) (Wu : Mat 256 256) (bu : Row 256) (Wg : Mat 256 512) (bg : Row 256)
    (Wa Wd : Mat 256 512) : Mat 16384 256 := fun i =>
  cellNum (n i) (am i) (preU x Wu bu (i 0) (i 1)) (preG x h Wg bg (i 0) (i 1)) (joint x h Wa (i 0) (i 1))
    (joint x h Wd (i 0) (i 1))

/-- The new denominator D. -/
def outDen (x d h am : Mat 16384 256) (Wa Wd : Mat 256 512) : Mat 16384 256 := fun i =>
  cellDen (d i) (am i) (joint x h Wa (i 0) (i 1)) (joint x h Wd (i 0) (i 1))

/-- The new hidden value H. -/
def outHid (x n d h am : Mat 16384 256) (Wu : Mat 256 256) (bu : Row 256) (Wg : Mat 256 512) (bg : Row 256)
    (Wa Wd : Mat 256 512) : Mat 16384 256 := fun i =>
  cellHid (n i) (d i) (am i) (preU x Wu bu (i 0) (i 1)) (preG x h Wg bg (i 0) (i 1)) (joint x h Wa (i 0) (i 1))
    (joint x h Wd (i 0) (i 1))

/-! ## The one law that joins the two programs -/

/-- A sum over 512 indices is the sum over its first 256 plus the sum over its last 256. -/
theorem sum_halves (f : Fin 512 → EReal) : ∑ k : Fin 512, f k = (∑ k : Fin 256, f (lo k)) + ∑ k : Fin 256, f (hi k) := by
  have e := Fin.sum_univ_add (M := EReal) (a := 256) (b := 256) f
  exact e

/-- The float word 0x3F800000 is the number 1. -/
theorem one_word : Ideal.ofBits .f32 0x3F800000#32 = 1 := by
  simp [Ideal.ofBits, Ideal.ieee, -EReal.coe_mul]; norm_num

end Cert.Rwa

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Body.lean ====
/-
  What the kernel's body computes for one block of 1024 rows, read at an entry (p, q) of the block, at the ideal values.

  The body loads the block's rows of x, n, d, h and amax (1024 × 256 each), the seven weight matrices (256 × 256 each, already
  transposed: entry (k, q) is the weight of input column k for output column q) and the two bias rows (1 × 256). Rounding
  the rows of x and h to a narrower float format is the identity here, a matrix product into the zero accumulator is the
  sum over k of the products of entries, and a bias row is repeated down the block. So with

      u = Σk x(p,k)·w5(k,q) + b12(0,q)                        g = (Σk x(p,k)·w6(k,q) + Σk h(p,k)·w7(k,q)) + b13(0,q)
      a = Σk x(p,k)·w8(k,q) + Σk h(p,k)·w9(k,q)               s = Σk x(p,k)·w10(k,q) + Σk h(p,k)·w11(k,q)

  the four values stored at (p, q) are the cell's new numerator, denominator, hidden value and running maximum of
  n(p,q), d(p,q), amax(p,q), u, g, a and s. The kernel negates σ(s) as 0 − σ(s), which is −σ(s) on every extended real.
-/
import proofs.«109745_j65455301591398_1_alg».proof.Proof.Gen.KernelIdeal.Skeleton
import proofs.«109745_j65455301591398_1_alg».proof.Proof.Spec
import proofs.«109745_j65455301591398_1_alg».proof.Proof.LibPlainDot
import Idealize.ShloMosaic.Lib.Pipeline.Value
import Idealize.ShloMosaic.Lib.ValueLayout
import Idealize.ShloMosaic.PureOps.Ideal.Laws

noncomputable section

open scoped BigOperators

namespace Cert.Rwa.Body

open Idealize.ShloMosaic Idealize.ShloMosaic.ValueIdx Cert.KernelIdeal Cert.KernelIdeal.Gen Cert.Rwa

/-- A block of rows times a transposed weight matrix, at entry (p, q): the sum over k of row p against column q. -/
theorem prod_at (x : FVec Ideal S1024x256 .bf16) (w : FVec Ideal S256x256 .bf16) (p : Fin 1024) (q : Fin 256) :
    matmul dot_S1024x256_S256x256_S1024x256_1_0_0_1_n_n none x
        (shapeCast S256x256 w shapeCasts_S256x256_S256x256) (constant S1024x256 .f32 0x00000000#32) (ix2 p q)
      = ∑ k : Fin 256, x (ix2 p k) * w (ix2 k q) := by
  rw [shapeCast_self]
  exact (Ideal.matmul_constant_zero_apply (DotDims.plain 1024 256 256) none x w (ix2 p q)).trans
    (Cert.LibPlainDot.sum_contr x w p q)

/-- A bias row repeated down the block, at entry (p, q): the row's entry q. -/
theorem bias_at (b : Vec Ideal S1x256 .f32) (p : Fin 1024) (q : Fin 256) :
    broadcastTo S1024x256 (shapeCast S1x256 b shapeCasts_S1x256_S1x256) broadcasts_S1x256_S1024x256 (ix2 p q)
      = b (ix2 (0 : Fin 1) q) := by
  rw [shapeCast_self]
  exact broadcastTo_1b_ab_apply b broadcasts_S1x256_S1024x256 p q

/-- u at (p, q). -/
theorem pay10_at (x0 : Vec Ideal S1024x256 .f32) (w5 : Vec Ideal S256x256 .bf16) (b12 : Vec Ideal S1x256 .f32)
    (p : Fin 1024) (q : Fin 256) :
    k0_pay10 x0 w5 b12 (ix2 p q) = (∑ k : Fin 256, x0 (ix2 p k) * w5 (ix2 k q)) + b12 (ix2 (0 : Fin 1) q) := by
  unfold k0_pay10 k0_pay8
  exact congrArg₂ (· + ·) (prod_at x0 w5 p q) (bias_at b12 p q)

/-- s's first half, Σk x(p,k)·w10(k,q), at (p, q). -/
theorem pay13_at (x0 : Vec Ideal S1024x256 .f32) (w10 : Vec Ideal S256x256 .bf16) (p : Fin 1024) (q : Fin 256) :
    k0_pay13 x0 w10 (ix2 p q) = ∑ k : Fin 256, x0 (ix2 p k) * w10 (ix2 k q) := by
  unfold k0_pay13 k0_pay8
  exact prod_at x0 w10 p q

/-- a at (p, q). -/
theorem pay12_at (x0 x3 : Vec Ideal S1024x256 .f32) (w8 w9 : Vec Ideal S256x256 .bf16) (p : Fin 1024) (q : Fin 256) :
    k0_pay12 x0 x3 w8 w9 (ix2 p q)
      = (∑ k : Fin 256, x0 (ix2 p k) * w8 (ix2 k q)) + ∑ k : Fin 256, x3 (ix2 p k) * w9 (ix2 k q) := by
  unfold k0_pay12 k0_pay8 k0_pay9
  exact congrArg₂ (· + ·) (prod_at x0 w8 p q) (prod_at x3 w9 p q)

/-- g at (p, q). -/
theorem pay11_at (x0 x3 : Vec Ideal S1024x256 .f32) (w6 w7 : Vec Ideal S256x256 .bf16) (b13 : Vec Ideal S1x256 .f32)
    (p : Fin 1024) (q : Fin 256) :
    k0_pay11 x0 x3 w6 w7 b13 (ix2 p q)
      = ((∑ k : Fin 256, x0 (ix2 p k) * w6 (ix2 k q)) + ∑ k : Fin 256, x3 (ix2 p k) * w7 (ix2 k q))
        + b13 (ix2 (0 : Fin 1) q) := by
  unfold k0_pay11 k0_pay8 k0_pay9
  exact congrArg₂ (· + ·) (congrArg₂ (· + ·) (prod_at x0 w6 p q) (prod_at x3 w7 p q)) (bias_at b13 p q)

/-- The decay factor at (p, q): exp(0 − σ(s)) is exp(−σ(s)), with s the first half as given plus the second half. -/
theorem pay1_at (v3 : FVec Ideal S1024x256 .bf16) (v31 : FVec Ideal S1024x256 .f32) (v32 : FVec Ideal S256x256 .bf16)
    (p : Fin 1024) (q : Fin 256) :
    k0_pay1 v3 v31 v32 (ix2 p q) = decay (v31 (ix2 p q) + ∑ k : Fin 256, v3 (ix2 p k) * v32 (ix2 k q)) := by
  have h := prod_at v3 v32 p q
  unfold k0_pay1 decay
  show Ideal.exp (Ideal.ofBits .f32 0x00000000#32 - Ideal.logistic (v31 (ix2 p q) + _)) = _
  rw [Ideal.ofBits_zero_f32, zero_sub, h]

/-- The decay factor of the block, in the block's loads. -/
theorem decay_at (x0 x3 : Vec Ideal S1024x256 .f32) (w10 w11 : Vec Ideal S256x256 .bf16) (p : Fin 1024) (q : Fin 256) :
    k0_pay1 (k0_pay9 x3) (k0_pay13 x0 w10) w11 (ix2 p q)
      = decay ((∑ k : Fin 256, x0 (ix2 p k) * w10 (ix2 k q)) + ∑ k : Fin 256, x3 (ix2 p k) * w11 (ix2 k q)) := by
  rw [pay1_at, pay13_at]
  rfl

/-- The stored running maximum at (p, q). -/
theorem max_at (x0 x3 x4 : Vec Ideal S1024x256 .f32) (w8 w9 w10 w11 : Vec Ideal S256x256 .bf16)
    (p : Fin 1024) (q : Fin 256) :
    k0_pay2 (k0_pay9 x3) (k0_pay12 x0 x3 w8 w9) (k0_pay13 x0 w10) w11 x4 (ix2 p q)
      = cellMax (x4 (ix2 p q))
          ((∑ k : Fin 256, x0 (ix2 p k) * w10 (ix2 k q)) + ∑ k : Fin 256, x3 (ix2 p k) * w11 (ix2 k q))
          ((∑ k : Fin 256, x0 (ix2 p k) * w8 (ix2 k q)) + ∑ k : Fin 256, x3 (ix2 p k) * w9 (ix2 k q)) := by
  have hd := decay_at x0 x3 w10 w11 p q
  have ha := pay12_at x0 x3 w8 w9 p q
  unfold k0_pay2 cellMax
  show max (x4 (ix2 p q) * k0_pay1 (k0_pay9 x3) (k0_pay13 x0 w10) w11 (ix2 p q)) (k0_pay12 x0 x3 w8 w9 (ix2 p q)) = _
  rw [hd, ha]

/-- exp(amax − M) at (p, q). -/
theorem pay3_at (x0 x3 x4 : Vec Ideal S1024x256 .f32) (w8 w9 w10 w11 : Vec Ideal S256x256 .bf16)
    (p : Fin 1024) (q : Fin 256) :
    k0_pay3 (k0_pay9 x3) (k0_pay12 x0 x3 w8 w9) (k0_pay13 x0 w10) w11 x4 (ix2 p q)
      = Ideal.exp (x4 (ix2 p q) - cellMax (x4 (ix2 p q))
          ((∑ k : Fin 256, x0 (ix2 p k) * w10 (ix2 k q)) + ∑ k : Fin 256, x3 (ix2 p k) * w11 (ix2 k q))
          ((∑ k : Fin 256, x0 (ix2 p k) * w8 (ix2 k q)) + ∑ k : Fin 256, x3 (ix2 p k) * w9 (ix2 k q))) := by
  have hm := max_at x0 x3 x4 w8 w9 w10 w11 p q
  unfold k0_pay3
  show Ideal.exp (x4 (ix2 p q) - k0_pay2 (k0_pay9 x3) (k0_pay12 x0 x3 w8 w9) (k0_pay13 x0 w10) w11 x4 (ix2 p q)) = _
  rw [hm]

/-- exp(a − M) at (p, q). -/
theorem pay4_at (x0 x3 x4 : Vec Ideal S1024x256 .f32) (w8 w9 w10 w11 : Vec Ideal S256x256 .bf16)
    (p : Fin 1024) (q : Fin 256) :
    k0_pay4 (k0_pay9 x3) (k0_pay12 x0 x3 w8 w9) (k0_pay13 x0 w10) w11 x4 (ix2 p q)
      = Ideal.exp (((∑ k : Fin 256, x0 (ix2 p k) * w8 (ix2 k q)) + ∑ k : Fin 256, x3 (ix2 p k) * w9 (ix2 k q))
          - cellMax (x4 (ix2 p q))
          ((∑ k : Fin 256, x0 (ix2 p k) * w10 (ix2 k q)) + ∑ k : Fin 256, x3 (ix2 p k) * w11 (ix2 k q))
          ((∑ k : Fin 256, x0 (ix2 p k) * w8 (ix2 k q)) + ∑ k : Fin 256, x3 (ix2 p k) * w9 (ix2 k q))) := by
  have hm := max_at x0 x3 x4 w8 w9 w10 w11 p q
  have ha := pay12_at x0 x3 w8 w9 p q
  unfold k0_pay4
  show Ideal.exp (k0_pay12 x0 x3 w8 w9 (ix2 p q)
      - k0_pay2 (k0_pay9 x3) (k0_pay12 x0 x3 w8 w9) (k0_pay13 x0 w10) w11 x4 (ix2 p q)) = _
  rw [hm, ha]

/-- The stored numerator at (p, q). -/
theorem num_at (x0 x1 x3 x4 : Vec Ideal S1024x256 .f32) (w5 w6 w7 w8 w9 w10 w11 : Vec Ideal S256x256 .bf16)
    (b12 b13 : Vec Ideal S1x256 .f32) (p : Fin 1024) (q : Fin 256) :
    k0_pay5 (k0_pay9 x3) (k0_pay10 x0 w5 b12) (k0_pay11 x0 x3 w6 w7 b13) (k0_pay12 x0 x3 w8 w9) (k0_pay13 x0 w10) w11 x4 x1
        (ix2 p q)
      = cellNum (x1 (ix2 p q)) (x4 (ix2 p q))
          ((∑ k : Fin 256, x0 (ix2 p k) * w5 (ix2 k q)) + b12 (ix2 (0 : Fin 1) q))
          (((∑ k : Fin 256, x0 (ix2 p k) * w6 (ix2 k q)) + ∑ k : Fin 256, x3 (ix2 p k) * w7 (ix2 k q))
            + b13 (ix2 (0 : Fin 1) q))
          ((∑ k : Fin 256, x0 (ix2 p k) * w8 (ix2 k q)) + ∑ k : Fin 256, x3 (ix2 p k) * w9 (ix2 k q))
          ((∑ k : Fin 256, x0 (ix2 p k) * w10 (ix2 k q)) + ∑ k : Fin 256, x3 (ix2 p k) * w11 (ix2 k q)) := by
  have hd := decay_at x0 x3 w10 w11 p q
  have h3 := pay3_at x0 x3 x4 w8 w9 w10 w11 p q
  have h4 := pay4_at x0 x3 x4 w8 w9 w10 w11 p q
  have hu := pay10_at x0 w5 b12 p q
  have hg := pay11_at x0 x3 w6 w7 b13 p q
  unfold k0_pay5 cellNum
  show x1 (ix2 p q) * k0_pay1 (k0_pay9 x3) (k0_pay13 x0 w10) w11 (ix2 p q)
        * k0_pay3 (k0_pay9 x3) (k0_pay12 x0 x3 w8 w9) (k0_pay13 x0 w10) w11 x4 (ix2 p q)
      + k0_pay10 x0 w5 b12 (ix2 p q) * Ideal.tanh (k0_pay11 x0 x3 w6 w7 b13 (ix2 p q))
        * k0_pay4 (k0_pay9 x3) (k0_pay12 x0 x3 w8 w9) (k0_pay13 x0 w10) w11 x4 (ix2 p q) = _
  rw [hd, h3, h4, hu, hg]

/-- The stored denominator at (p, q). -/
theorem den_at (x0 x2 x3 x4 : Vec Ideal S1024x256 .f32) (w8 w9 w10 w11 : Vec Ideal S256x256 .bf16)
    (p : Fin 1024) (q : Fin 256) :
    k0_pay6 (k0_pay9 x3) (k0_pay12 x0 x3 w8 w9) (k0_pay13 x0 w10) w11 x4 x2 (ix2 p q)
      = cellDen (x2 (ix2 p q)) (x4 (ix2 p q))
          ((∑ k : Fin 256, x0 (ix2 p k) * w8 (ix2 k q)) + ∑ k : Fin 256, x3 (ix2 p k) * w9 (ix2 k q))
          ((∑ k : Fin 256, x0 (ix2 p k) * w10 (ix2 k q)) + ∑ k : Fin 256, x3 (ix2 p k) * w11 (ix2 k q)) := by
  have hd := decay_at x0 x3 w10 w11 p q
  have h3 := pay3_at x0 x3 x4 w8 w9 w10 w11 p q
  have h4 := pay4_at x0 x3 x4 w8 w9 w10 w11 p q
  unfold k0_pay6 cellDen
  show x2 (ix2 p q) * k0_pay1 (k0_pay9 x3) (k0_pay13 x0 w10) w11 (ix2 p q)
        * k0_pay3 (k0_pay9 x3) (k0_pay12 x0 x3 w8 w9) (k0_pay13 x0 w10) w11 x4 (ix2 p q)
      + k0_pay4 (k0_pay9 x3) (k0_pay12 x0 x3 w8 w9) (k0_pay13 x0 w10) w11 x4 (ix2 p q) = _
  rw [hd, h3, h4]

/-- The stored hidden value at (p, q). -/
theorem hid_at (x0 x1 x2 x3 x4 : Vec Ideal S1024x256 .f32) (w5 w6 w7 w8 w9 w10 w11 : Vec Ideal S256x256 .bf16)
    (b12 b13 : Vec Ideal S1x256 .f32) (p : Fin 1024) (q : Fin 256) :
    k0_pay7 (k0_pay9 x3) (k0_pay10 x0 w5 b12) (k0_pay11 x0 x3 w6 w7 b13) (k0_pay12 x0 x3 w8 w9) (k0_pay13 x0 w10) w11 x4 x1 x2
        (ix2 p q)
      = cellHid (x1 (ix2 p q)) (x2 (ix2 p q)) (x4 (ix2 p q))
          ((∑ k : Fin 256, x0 (ix2 p k) * w5 (ix2 k q)) + b12 (ix2 (0 : Fin 1) q))
          (((∑ k : Fin 256, x0 (ix2 p k) * w6 (ix2 k q)) + ∑ k : Fin 256, x3 (ix2 p k) * w7 (ix2 k q))
            + b13 (ix2 (0 : Fin 1) q))
          ((∑ k : Fin 256, x0 (ix2 p k) * w8 (ix2 k q)) + ∑ k : Fin 256, x3 (ix2 p k) * w9 (ix2 k q))
          ((∑ k : Fin 256, x0 (ix2 p k) * w10 (ix2 k q)) + ∑ k : Fin 256, x3 (ix2 p k) * w11 (ix2 k q)) := by
  have hn := num_at x0 x1 x3 x4 w5 w6 w7 w8 w9 w10 w11 b12 b13 p q
  have hD := den_at x0 x2 x3 x4 w8 w9 w10 w11 p q
  unfold k0_pay7 cellHid
  show Ideal.tanh (Ideal.div
      (k0_pay5 (k0_pay9 x3) (k0_pay10 x0 w5 b12) (k0_pay11 x0 x3 w6 w7 b13) (k0_pay12 x0 x3 w8 w9) (k0_pay13 x0 w10) w11 x4 x1
        (ix2 p q))
      (k0_pay6 (k0_pay9 x3) (k0_pay12 x0 x3 w8 w9) (k0_pay13 x0 w10) w11 x4 x2 (ix2 p q))) = _
  rw [hn, hD]

end Cert.Rwa.Body

end
-- ==== Proof.Staged.lean ====
/-
  What the kernel's one launch finds in each operand's array, read at an entry, and where an entry of a block sits in its
  array.

  The launch runs over 16 points; at point t the five row operands x, n, d, h, amax and the four results are cut into
  blocks of 1024 rows, block t holding rows t·1024 … t·1024 + 1023 of all 256 columns, while the seven weight matrices and
  the two bias rows are each one block, the whole array, at every point. The weight matrices and bias rows are written by
  the operations before the launch: Wu transposed; the first and the last 256 columns of Wg, Wa and Wd, each transposed;
  bu and bg as 1 × 256 rows. Rounding to the narrower float format is the identity at the ideal values. So entry (k, q) of
  a staged weight is W(q, k) for Wu, W(q, k) or W(q, 256 + k) for a half of Wg, Wa or Wd, and entry (0, q) of a staged
  bias row is the bias at q.
-/
import proofs.«109745_j65455301591398_1_alg».proof.Proof.Gen.KernelIdeal.Frame
import proofs.«109745_j65455301591398_1_alg».proof.Proof.Spec
import Idealize.ShloMosaic.Lib.Pipeline.Value
import Idealize.ShloMosaic.Lib.ValueLayout
import Idealize.ShloMosaic.Lib.StableHlo.Run

noncomputable section

open scoped BigOperators

namespace Cert.Rwa.Staged

open Idealize.ShloMosaic Idealize.ShloMosaic.TcCoe Idealize.ShloMosaic.ValueIdx Idealize.SL.Sem Idealize.ShloMosaic.StableHlo
open Cert.KernelIdeal Cert.KernelIdeal.Gen Cert.Rwa

variable (m : (ℓ : Loc nD τ sig) → Buf (Elt Ideal) ℓ)

/-! ## The operands written before the launch -/

/-- The staged Wu is Wu transposed. -/
theorem w5_eq (c : Dev nD) :
    (V m c main_v1 : S256x256.Idx → EReal)
      = truncf (F := Ideal) .bf16 (transpose S256x256 [1, 0] (m ((c : Thread nD τ).loc main_arg5)) transposes_S256x256_S256x256_1_0)
          bitsLt_bf16_f32 := by
  dsimp only [Gen.V, Gen.hostOps0]; after_results

/-- Its entry (k, q) is Wu(q, k). -/
theorem w5_at (c : Dev nD) (k q : Fin 256) : V m c main_v1 (ix2 k q) = m ((c : Thread nD τ).loc main_arg5) (ix2 q k) :=
  (congrFun (w5_eq m c) (ix2 k q)).trans (transpose_ix2_apply _ _ k q)

/-- This staged weight is the first 256 columns of argument 7, transposed. -/
theorem w6_eq (c : Dev nD) :
    (V m c main_v4 : S256x256.Idx → EReal)
      = truncf (F := Ideal) .bf16 (transpose S256x256 [1, 0]
          (extractStridedSlice S256x256 ![0, 0] (m ((c : Thread nD τ).loc main_arg7)) slices_S256x512_S256x256_0_0)
          transposes_S256x256_S256x256_1_0) bitsLt_bf16_f32 := by
  dsimp only [Gen.V, Gen.hostOps0]; after_results

/-- Its entry (k, q) is the argument's entry (q, k). -/
theorem w6_at (c : Dev nD) (k q : Fin 256) : V m c main_v4 (ix2 k q) = m ((c : Thread nD τ).loc main_arg7) (ix2 q (lo k)) :=
  (congrFun (w6_eq m c) (ix2 k q)).trans ((transpose_ix2_apply _ _ k q).trans
    (slice2_axis1_apply 0 _ slices_S256x512_S256x256_0_0 q k (lo k) (Nat.zero_add _).symm))

/-- This staged weight is the last 256 columns of argument 7, transposed. -/
theorem w7_eq (c : Dev nD) :
    (V m c main_v7 : S256x256.Idx → EReal)
      = truncf (F := Ideal) .bf16 (transpose S256x256 [1, 0]
          (extractStridedSlice S256x256 ![0, 256] (m ((c : Thread nD τ).loc main_arg7)) slices_S256x512_S256x256_0_256)
          transposes_S256x256_S256x256_1_0) bitsLt_bf16_f32 := by
  dsimp only [Gen.V, Gen.hostOps0]; after_results

/-- Its entry (k, q) is the argument's entry (q, 256 + k). -/
theorem w7_at (c : Dev nD) (k q : Fin 256) : V m c main_v7 (ix2 k q) = m ((c : Thread nD τ).loc main_arg7) (ix2 q (hi k)) :=
  (congrFun (w7_eq m c) (ix2 k q)).trans ((transpose_ix2_apply _ _ k q).trans
    (slice2_axis1_apply 256 _ slices_S256x512_S256x256_0_256 q k (hi k) rfl))

/-- This staged weight is the first 256 columns of argument 9, transposed. -/
theorem w8_eq (c : Dev nD) :
    (V m c main_v10 : S256x256.Idx → EReal)
      = truncf (F := Ideal) .bf16 (transpose S256x256 [1, 0]
          (extractStridedSlice S256x256 ![0, 0] (m ((c : Thread nD τ).loc main_arg9)) slices_S256x512_S256x256_0_0)
          transposes_S256x256_S256x256_1_0) bitsLt_bf16_f32 := by
  dsimp only [Gen.V, Gen.hostOps0]; after_results

/-- Its entry (k, q) is the argument's entry (q, k). -/
theorem w8_at (c : Dev nD) (k q : Fin 256) : V m c main_v10 (ix2 k q) = m ((c : Thread nD τ).loc main_arg9) (ix2 q (lo k)) :=
  (congrFun (w8_eq m c) (ix2 k q)).trans ((transpose_ix2_apply _ _ k q).trans
    (slice2_axis1_apply 0 _ slices_S256x512_S256x256_0_0 q k (lo k) (Nat.zero_add _).symm))

/-- This staged weight is the last 256 columns of argument 9, transposed. -/
theorem w9_eq (c : Dev nD) :
    (V m c main_v13 : S256x256.Idx → EReal)
      = truncf (F := Ideal) .bf16 (transpose S256x256 [1, 0]
          (extractStridedSlice S256x256 ![0, 256] (m ((c : Thread nD τ).loc main_arg9)) slices_S256x512_S256x256_0_256)
          transposes_S256x256_S256x256_1_0) bitsLt_bf16_f32 := by
  dsimp only [Gen.V, Gen.hostOps0]; after_results

/-- Its entry (k, q) is the argument's entry (q, 256 + k). -/
theorem w9_at (c : Dev nD) (k q : Fin 256) : V m c main_v13 (ix2 k q) = m ((c : Thread nD τ).loc main_arg9) (ix2 q (hi k)) :=
  (congrFun (w9_eq m c) (ix2 k q)).trans ((transpose_ix2_apply _ _ k q).trans
    (slice2_axis1_apply 256 _ slices_S256x512_S256x256_0_256 q k (hi k) rfl))

/-- This staged weight is the first 256 columns of argument 10, transposed. -/
theorem w10_eq (c : Dev nD) :
    (V m c main_v16 : S256x256.Idx → EReal)
      = truncf (F := Ideal) .bf16 (transpose S256x256 [1, 0]
          (extractStridedSlice S256x256 ![0, 0] (m ((c : Thread nD τ).loc main_arg10)) slices_S256x512_S256x256_0_0)
          transposes_S256x256_S256x256_1_0) bitsLt_bf16_f32 := by
  dsimp only [Gen.V, Gen.hostOps0]; after_results

/-- Its entry (k, q) is the argument's entry (q, k). -/
theorem w10_at (c : Dev nD) (k q : Fin 256) : V m c main_v16 (ix2 k q) = m ((c : Thread nD τ).loc main_arg10) (ix2 q (lo k)) :=
  (congrFun (w10_eq m c) (ix2 k q)).trans ((transpose_ix2_apply _ _ k q).trans
    (slice2_axis1_apply 0 _ slices_S256x512_S256x256_0_0 q k (lo k) (Nat.zero_add _).symm))

/-- This staged weight is the last 256 columns of argument 10, transposed. -/
theorem w11_eq (c : Dev nD) :
    (V m c main_v19 : S256x256.Idx → EReal)
      = truncf (F := Ideal) .bf16 (transpose S256x256 [1, 0]
          (extractStridedSlice S256x256 ![0, 256] (m ((c : Thread nD τ).loc main_arg10)) slices_S256x512_S256x256_0_256)
          transposes_S256x256_S256x256_1_0) bitsLt_bf16_f32 := by
  dsimp only [Gen.V, Gen.hostOps0]; after_results

/-- Its entry (k, q) is the argument's entry (q, 256 + k). -/
theorem w11_at (c : Dev nD) (k q : Fin 256) : V m c main_v19 (ix2 k q) = m ((c : Thread nD τ).loc main_arg10) (ix2 q (hi k)) :=
  (congrFun (w11_eq m c) (ix2 k q)).trans ((transpose_ix2_apply _ _ k q).trans
    (slice2_axis1_apply 256 _ slices_S256x512_S256x256_0_256 q k (hi k) rfl))

/-- This staged bias row is argument 6 as a 1 × 256 row. -/
theorem w12_eq (c : Dev nD) :
    (V m c main_v20 : S1x256.Idx → EReal) = shapeCast S1x256 (m ((c : Thread nD τ).loc main_arg6)) shapeCasts_S256_S1x256 := by
  dsimp only [Gen.V, Gen.hostOps0]; after_results; rfl

/-- Its entry (0, q) is the bias at q. -/
theorem w12_at (c : Dev nD) (q : Fin 256) : V m c main_v20 (ix2 (0 : Fin 1) q) = m ((c : Thread nD τ).loc main_arg6) (ix1 q) :=
  (congrFun (w12_eq m c) (ix2 (0 : Fin 1) q)).trans (shapeCast_a_1a_apply _ shapeCasts_S256_S1x256 0 q)

/-- This staged bias row is argument 8 as a 1 × 256 row. -/
theorem w13_eq (c : Dev nD) :
    (V m c main_v21 : S1x256.Idx → EReal) = shapeCast S1x256 (m ((c : Thread nD τ).loc main_arg8)) shapeCasts_S256_S1x256 := by
  dsimp only [Gen.V, Gen.hostOps0]; after_results; rfl

/-- Its entry (0, q) is the bias at q. -/
theorem w13_at (c : Dev nD) (q : Fin 256) : V m c main_v21 (ix2 (0 : Fin 1) q) = m ((c : Thread nD τ).loc main_arg8) (ix1 q) :=
  (congrFun (w13_eq m c) (ix2 (0 : Fin 1) q)).trans (shapeCast_a_1a_apply _ shapeCasts_S256_S1x256 0 q)

/-! ## Where a block's entries sit -/

/-- Row `p` of block `t` is row `t·1024 + p` of the array. -/
def rowOf (t : Fin cfg0.N) (p : Fin 1024) : Fin 16384 :=
  ⟨t.val * 1024 + p.val, by have := t.isLt; have h : cfg0.N = 16 := N_0; have := p.isLt; omega⟩

/-- Window 0's block at point `t` is block row `t`, block column 0 (decided over the 16 points). -/
theorem idx0 : ∀ t : Fin cfg0.N, win0_0.index t (0 : Fin 2) = t.val ∧ win0_0.index t (1 : Fin 2) = 0 :=
  (by decide +kernel : ∀ t : Fin grid0.N, _)

/-- Entry (p, k) of window 0's block at point `t` is entry (t·1024 + p, k) of its array. -/
theorem emb0 (t : Fin cfg0.N) (p : Fin 1024) (k : Fin 256) :
    ((cfg0.win 0).blk t).view.emb (ix2 p k) = ix2 (rowOf t p) k := by
  obtain ⟨e0, e1⟩ := idx0 t
  funext a; apply Fin.ext
  match a with
  | ⟨0, _⟩ => show win0_0.index t (0 : Fin 2) * 1024 + 1 * p.val = t.val * 1024 + p.val; omega
  | ⟨1, _⟩ => show win0_0.index t (1 : Fin 2) * 256 + 1 * k.val = k.val; omega

/-- Window 1's block at point `t` is block row `t`, block column 0 (decided over the 16 points). -/
theorem idx1 : ∀ t : Fin cfg0.N, win0_1.index t (0 : Fin 2) = t.val ∧ win0_1.index t (1 : Fin 2) = 0 :=
  (by decide +kernel : ∀ t : Fin grid0.N, _)

/-- Entry (p, k) of window 1's block at point `t` is entry (t·1024 + p, k) of its array. -/
theorem emb1 (t : Fin cfg0.N) (p : Fin 1024) (k : Fin 256) :
    ((cfg0.win 1).blk t).view.emb (ix2 p k) = ix2 (rowOf t p) k := by
  obtain ⟨e0, e1⟩ := idx1 t
  funext a; apply Fin.ext
  match a with
  | ⟨0, _⟩ => show win0_1.index t (0 : Fin 2) * 1024 + 1 * p.val = t.val * 1024 + p.val; omega
  | ⟨1, _⟩ => show win0_1.index t (1 : Fin 2) * 256 + 1 * k.val = k.val; omega

/-- Window 2's block at point `t` is block row `t`, block column 0 (decided over the 16 points). -/
theorem idx2 : ∀ t : Fin cfg0.N, win0_2.index t (0 : Fin 2) = t.val ∧ win0_2.index t (1 : Fin 2) = 0 :=
  (by decide +kernel : ∀ t : Fin grid0.N, _)

/-- Entry (p, k) of window 2's block at point `t` is entry (t·1024 + p, k) of its array. -/
theorem emb2 (t : Fin cfg0.N) (p : Fin 1024) (k : Fin 256) :
    ((cfg0.win 2).blk t).view.emb (ix2 p k) = ix2 (rowOf t p) k := by
  obtain ⟨e0, e1⟩ := idx2 t
  funext a; apply Fin.ext
  match a with
  | ⟨0, _⟩ => show win0_2.index t (0 : Fin 2) * 1024 + 1 * p.val = t.val * 1024 + p.val; omega
  | ⟨1, _⟩ => show win0_2.index t (1 : Fin 2) * 256 + 1 * k.val = k.val; omega

/-- Window 3's block at point `t` is block row `t`, block column 0 (decided over the 16 points). -/
theorem idx3 : ∀ t : Fin cfg0.N, win0_3.index t (0 : Fin 2) = t.val ∧ win0_3.index t (1 : Fin 2) = 0 :=
  (by decide +kernel : ∀ t : Fin grid0.N, _)

/-- Entry (p, k) of window 3's block at point `t` is entry (t·1024 + p, k) of its array. -/
theorem emb3 (t : Fin cfg0.N) (p : Fin 1024) (k : Fin 256) :
    ((cfg0.win 3).blk t).view.emb (ix2 p k) = ix2 (rowOf t p) k := by
  obtain ⟨e0, e1⟩ := idx3 t
  funext a; apply Fin.ext
  match a with
  | ⟨0, _⟩ => show win0_3.index t (0 : Fin 2) * 1024 + 1 * p.val = t.val * 1024 + p.val; omega
  | ⟨1, _⟩ => show win0_3.index t (1 : Fin 2) * 256 + 1 * k.val = k.val; omega

/-- Window 4's block at point `t` is block row `t`, block column 0 (decided over the 16 points). -/
theorem idx4 : ∀ t : Fin cfg0.N, win0_4.index t (0 : Fin 2) = t.val ∧ win0_4.index t (1 : Fin 2) = 0 :=
  (by decide +kernel : ∀ t : Fin grid0.N, _)

/-- Entry (p, k) of window 4's block at point `t` is entry (t·1024 + p, k) of its array. -/
theorem emb4 (t : Fin cfg0.N) (p : Fin 1024) (k : Fin 256) :
    ((cfg0.win 4).blk t).view.emb (ix2 p k) = ix2 (rowOf t p) k := by
  obtain ⟨e0, e1⟩ := idx4 t
  funext a; apply Fin.ext
  match a with
  | ⟨0, _⟩ => show win0_4.index t (0 : Fin 2) * 1024 + 1 * p.val = t.val * 1024 + p.val; omega
  | ⟨1, _⟩ => show win0_4.index t (1 : Fin 2) * 256 + 1 * k.val = k.val; omega

/-- Window 14's block at point `t` is block row `t`, block column 0 (decided over the 16 points). -/
theorem idx14 : ∀ t : Fin cfg0.N, win0_14.index t (0 : Fin 2) = t.val ∧ win0_14.index t (1 : Fin 2) = 0 :=
  (by decide +kernel : ∀ t : Fin grid0.N, _)

/-- Entry (p, k) of window 14's block at point `t` is entry (t·1024 + p, k) of its array. -/
theorem emb14 (t : Fin cfg0.N) (p : Fin 1024) (k : Fin 256) :
    ((cfg0.win 14).blk t).view.emb (ix2 p k) = ix2 (rowOf t p) k := by
  obtain ⟨e0, e1⟩ := idx14 t
  funext a; apply Fin.ext
  match a with
  | ⟨0, _⟩ => show win0_14.index t (0 : Fin 2) * 1024 + 1 * p.val = t.val * 1024 + p.val; omega
  | ⟨1, _⟩ => show win0_14.index t (1 : Fin 2) * 256 + 1 * k.val = k.val; omega

/-- Window 15's block at point `t` is block row `t`, block column 0 (decided over the 16 points). -/
theorem idx15 : ∀ t : Fin cfg0.N, win0_15.index t (0 : Fin 2) = t.val ∧ win0_15.index t (1 : Fin 2) = 0 :=
  (by decide +kernel : ∀ t : Fin grid0.N, _)

/-- Entry (p, k) of window 15's block at point `t` is entry (t·1024 + p, k) of its array. -/
theorem emb15 (t : Fin cfg0.N) (p : Fin 1024) (k : Fin 256) :
    ((cfg0.win 15).blk t).view.emb (ix2 p k) = ix2 (rowOf t p) k := by
  obtain ⟨e0, e1⟩ := idx15 t
  funext a; apply Fin.ext
  match a with
  | ⟨0, _⟩ => show win0_15.index t (0 : Fin 2) * 1024 + 1 * p.val = t.val * 1024 + p.val; omega
  | ⟨1, _⟩ => show win0_15.index t (1 : Fin 2) * 256 + 1 * k.val = k.val; omega

/-- Window 16's block at point `t` is block row `t`, block column 0 (decided over the 16 points). -/
theorem idx16 : ∀ t : Fin cfg0.N, win0_16.index t (0 : Fin 2) = t.val ∧ win0_16.index t (1 : Fin 2) = 0 :=
  (by decide +kernel : ∀ t : Fin grid0.N, _)

/-- Entry (p, k) of window 16's block at point `t` is entry (t·1024 + p, k) of its array. -/
theorem emb16 (t : Fin cfg0.N) (p : Fin 1024) (k : Fin 256) :
    ((cfg0.win 16).blk t).view.emb (ix2 p k) = ix2 (rowOf t p) k := by
  obtain ⟨e0, e1⟩ := idx16 t
  funext a; apply Fin.ext
  match a with
  | ⟨0, _⟩ => show win0_16.index t (0 : Fin 2) * 1024 + 1 * p.val = t.val * 1024 + p.val; omega
  | ⟨1, _⟩ => show win0_16.index t (1 : Fin 2) * 256 + 1 * k.val = k.val; omega

/-- Window 17's block at point `t` is block row `t`, block column 0 (decided over the 16 points). -/
theorem idx17 : ∀ t : Fin cfg0.N, win0_17.index t (0 : Fin 2) = t.val ∧ win0_17.index t (1 : Fin 2) = 0 :=
  (by decide +kernel : ∀ t : Fin grid0.N, _)

/-- Entry (p, k) of window 17's block at point `t` is entry (t·1024 + p, k) of its array. -/
theorem emb17 (t : Fin cfg0.N) (p : Fin 1024) (k : Fin 256) :
    ((cfg0.win 17).blk t).view.emb (ix2 p k) = ix2 (rowOf t p) k := by
  obtain ⟨e0, e1⟩ := idx17 t
  funext a; apply Fin.ext
  match a with
  | ⟨0, _⟩ => show win0_17.index t (0 : Fin 2) * 1024 + 1 * p.val = t.val * 1024 + p.val; omega
  | ⟨1, _⟩ => show win0_17.index t (1 : Fin 2) * 256 + 1 * k.val = k.val; omega

/-- Window 5's block is the whole array at every point (decided over the 16 points). -/
theorem idx5 : ∀ t : Fin cfg0.N, win0_5.index t (0 : Fin 2) = 0 ∧ win0_5.index t (1 : Fin 2) = 0 :=
  (by decide +kernel : ∀ t : Fin grid0.N, _)

/-- Entry (k, q) of window 5's block is entry (k, q) of its array. -/
theorem emb5 (t : Fin cfg0.N) (k q : Fin 256) : ((cfg0.win 5).blk t).view.emb (ix2 k q) = ix2 k q := by
  obtain ⟨e0, e1⟩ := idx5 t
  funext a; apply Fin.ext
  match a with
  | ⟨0, _⟩ => show win0_5.index t (0 : Fin 2) * 256 + 1 * k.val = k.val; omega
  | ⟨1, _⟩ => show win0_5.index t (1 : Fin 2) * 256 + 1 * q.val = q.val; omega

/-- Window 6's block is the whole array at every point (decided over the 16 points). -/
theorem idx6 : ∀ t : Fin cfg0.N, win0_6.index t (0 : Fin 2) = 0 ∧ win0_6.index t (1 : Fin 2) = 0 :=
  (by decide +kernel : ∀ t : Fin grid0.N, _)

/-- Entry (k, q) of window 6's block is entry (k, q) of its array. -/
theorem emb6 (t : Fin cfg0.N) (k q : Fin 256) : ((cfg0.win 6).blk t).view.emb (ix2 k q) = ix2 k q := by
  obtain ⟨e0, e1⟩ := idx6 t
  funext a; apply Fin.ext
  match a with
  | ⟨0, _⟩ => show win0_6.index t (0 : Fin 2) * 256 + 1 * k.val = k.val; omega
  | ⟨1, _⟩ => show win0_6.index t (1 : Fin 2) * 256 + 1 * q.val = q.val; omega

/-- Window 7's block is the whole array at every point (decided over the 16 points). -/
theorem idx7 : ∀ t : Fin cfg0.N, win0_7.index t (0 : Fin 2) = 0 ∧ win0_7.index t (1 : Fin 2) = 0 :=
  (by decide +kernel : ∀ t : Fin grid0.N, _)

/-- Entry (k, q) of window 7's block is entry (k, q) of its array. -/
theorem emb7 (t : Fin cfg0.N) (k q : Fin 256) : ((cfg0.win 7).blk t).view.emb (ix2 k q) = ix2 k q := by
  obtain ⟨e0, e1⟩ := idx7 t
  funext a; apply Fin.ext
  match a with
  | ⟨0, _⟩ => show win0_7.index t (0 : Fin 2) * 256 + 1 * k.val = k.val; omega
  | ⟨1, _⟩ => show win0_7.index t (1 : Fin 2) * 256 + 1 * q.val = q.val; omega

/-- Window 8's block is the whole array at every point (decided over the 16 points). -/
theorem idx8 : ∀ t : Fin cfg0.N, win0_8.index t (0 : Fin 2) = 0 ∧ win0_8.index t (1 : Fin 2) = 0 :=
  (by decide +kernel : ∀ t : Fin grid0.N, _)

/-- Entry (k, q) of window 8's block is entry (k, q) of its array. -/
theorem emb8 (t : Fin cfg0.N) (k q : Fin 256) : ((cfg0.win 8).blk t).view.emb (ix2 k q) = ix2 k q := by
  obtain ⟨e0, e1⟩ := idx8 t
  funext a; apply Fin.ext
  match a with
  | ⟨0, _⟩ => show win0_8.index t (0 : Fin 2) * 256 + 1 * k.val = k.val; omega
  | ⟨1, _⟩ => show win0_8.index t (1 : Fin 2) * 256 + 1 * q.val = q.val; omega

/-- Window 9's block is the whole array at every point (decided over the 16 points). -/
theorem idx9 : ∀ t : Fin cfg0.N, win0_9.index t (0 : Fin 2) = 0 ∧ win0_9.index t (1 : Fin 2) = 0 :=
  (by decide +kernel : ∀ t : Fin grid0.N, _)

/-- Entry (k, q) of window 9's block is entry (k, q) of its array. -/
theorem emb9 (t : Fin cfg0.N) (k q : Fin 256) : ((cfg0.win 9).blk t).view.emb (ix2 k q) = ix2 k q := by
  obtain ⟨e0, e1⟩ := idx9 t
  funext a; apply Fin.ext
  match a with
  | ⟨0, _⟩ => show win0_9.index t (0 : Fin 2) * 256 + 1 * k.val = k.val; omega
  | ⟨1, _⟩ => show win0_9.index t (1 : Fin 2) * 256 + 1 * q.val = q.val; omega

/-- Window 10's block is the whole array at every point (decided over the 16 points). -/
theorem idx10 : ∀ t : Fin cfg0.N, win0_10.index t (0 : Fin 2) = 0 ∧ win0_10.index t (1 : Fin 2) = 0 :=
  (by decide +kernel : ∀ t : Fin grid0.N, _)

/-- Entry (k, q) of window 10's block is entry (k, q) of its array. -/
theorem emb10 (t : Fin cfg0.N) (k q : Fin 256) : ((cfg0.win 10).blk t).view.emb (ix2 k q) = ix2 k q := by
  obtain ⟨e0, e1⟩ := idx10 t
  funext a; apply Fin.ext
  match a with
  | ⟨0, _⟩ => show win0_10.index t (0 : Fin 2) * 256 + 1 * k.val = k.val; omega
  | ⟨1, _⟩ => show win0_10.index t (1 : Fin 2) * 256 + 1 * q.val = q.val; omega

/-- Window 11's block is the whole array at every point (decided over the 16 points). -/
theorem idx11 : ∀ t : Fin cfg0.N, win0_11.index t (0 : Fin 2) = 0 ∧ win0_11.index t (1 : Fin 2) = 0 :=
  (by decide +kernel : ∀ t : Fin grid0.N, _)

/-- Entry (k, q) of window 11's block is entry (k, q) of its array. -/
theorem emb11 (t : Fin cfg0.N) (k q : Fin 256) : ((cfg0.win 11).blk t).view.emb (ix2 k q) = ix2 k q := by
  obtain ⟨e0, e1⟩ := idx11 t
  funext a; apply Fin.ext
  match a with
  | ⟨0, _⟩ => show win0_11.index t (0 : Fin 2) * 256 + 1 * k.val = k.val; omega
  | ⟨1, _⟩ => show win0_11.index t (1 : Fin 2) * 256 + 1 * q.val = q.val; omega

/-- Window 12's block is the whole 1 × 256 row at every point (decided over the 16 points). -/
theorem idx12 : ∀ t : Fin cfg0.N, win0_12.index t (0 : Fin 2) = 0 ∧ win0_12.index t (1 : Fin 2) = 0 :=
  (by decide +kernel : ∀ t : Fin grid0.N, _)

/-- Entry (0, q) of window 12's block is entry (0, q) of its array. -/
theorem emb12 (t : Fin cfg0.N) (q : Fin 256) :
    ((cfg0.win 12).blk t).view.emb (ix2 (0 : Fin 1) q) = ix2 (0 : Fin 1) q := by
  obtain ⟨e0, e1⟩ := idx12 t
  funext a; apply Fin.ext
  match a with
  | ⟨0, _⟩ => show win0_12.index t (0 : Fin 2) * 1 + 1 * 0 = 0; omega
  | ⟨1, _⟩ => show win0_12.index t (1 : Fin 2) * 256 + 1 * q.val = q.val; omega

/-- Window 13's block is the whole 1 × 256 row at every point (decided over the 16 points). -/
theorem idx13 : ∀ t : Fin cfg0.N, win0_13.index t (0 : Fin 2) = 0 ∧ win0_13.index t (1 : Fin 2) = 0 :=
  (by decide +kernel : ∀ t : Fin grid0.N, _)

/-- Entry (0, q) of window 13's block is entry (0, q) of its array. -/
theorem emb13 (t : Fin cfg0.N) (q : Fin 256) :
    ((cfg0.win 13).blk t).view.emb (ix2 (0 : Fin 1) q) = ix2 (0 : Fin 1) q := by
  obtain ⟨e0, e1⟩ := idx13 t
  funext a; apply Fin.ext
  match a with
  | ⟨0, _⟩ => show win0_13.index t (0 : Fin 2) * 1 + 1 * 0 = 0; omega
  | ⟨1, _⟩ => show win0_13.index t (1 : Fin 2) * 256 + 1 * q.val = q.val; omega

/-! ## The input blocks in terms of the argument arrays -/

/-- Entry (p, k) of argument 0's block at point `t` is the argument's entry (t·1024 + p, k). -/
theorem iblk0_at (c : Dev nD) (t : Fin cfg0.N) (p : Fin 1024) (k : Fin 256) :
    iblk m c 0 t (ix2 p k) = m ((c : Thread nD τ).loc main_arg0) (ix2 (rowOf t p) k) := by
  show V m c main_arg0 (((cfg0.win 0).blk t).view.emb (ix2 p k)) = _
  rw [emb0, V_main_arg0]

/-- Entry (p, k) of argument 1's block at point `t` is the argument's entry (t·1024 + p, k). -/
theorem iblk1_at (c : Dev nD) (t : Fin cfg0.N) (p : Fin 1024) (k : Fin 256) :
    iblk m c 1 t (ix2 p k) = m ((c : Thread nD τ).loc main_arg1) (ix2 (rowOf t p) k) := by
  show V m c main_arg1 (((cfg0.win 1).blk t).view.emb (ix2 p k)) = _
  rw [emb1, V_main_arg1]

/-- Entry (p, k) of argument 2's block at point `t` is the argument's entry (t·1024 + p, k). -/
theorem iblk2_at (c : Dev nD) (t : Fin cfg0.N) (p : Fin 1024) (k : Fin 256) :
    iblk m c 2 t (ix2 p k) = m ((c : Thread nD τ).loc main_arg2) (ix2 (rowOf t p) k) := by
  show V m c main_arg2 (((cfg0.win 2).blk t).view.emb (ix2 p k)) = _
  rw [emb2, V_main_arg2]

/-- Entry (p, k) of argument 3's block at point `t` is the argument's entry (t·1024 + p, k). -/
theorem iblk3_at (c : Dev nD) (t : Fin cfg0.N) (p : Fin 1024) (k : Fin 256) :
    iblk m c 3 t (ix2 p k) = m ((c : Thread nD τ).loc main_arg3) (ix2 (rowOf t p) k) := by
  show V m c main_arg3 (((cfg0.win 3).blk t).view.emb (ix2 p k)) = _
  rw [emb3, V_main_arg3]

/-- Entry (p, k) of argument 4's block at point `t` is the argument's entry (t·1024 + p, k). -/
theorem iblk4_at (c : Dev nD) (t : Fin cfg0.N) (p : Fin 1024) (k : Fin 256) :
    iblk m c 4 t (ix2 p k) = m ((c : Thread nD τ).loc main_arg4) (ix2 (rowOf t p) k) := by
  show V m c main_arg4 (((cfg0.win 4).blk t).view.emb (ix2 p k)) = _
  rw [emb4, V_main_arg4]

/-- Entry (k, q) of window 5's block, at every point. -/
theorem iblk5_at (c : Dev nD) (t : Fin cfg0.N) (k q : Fin 256) : iblk m c 5 t (ix2 k q) = m ((c : Thread nD τ).loc main_arg5) (ix2 q k) := by
  show V m c main_v1 (((cfg0.win 5).blk t).view.emb (ix2 k q)) = _
  rw [emb5]; exact w5_at m c k q

/-- Entry (k, q) of window 6's block, at every point. -/
theorem iblk6_at (c : Dev nD) (t : Fin cfg0.N) (k q : Fin 256) : iblk m c 6 t (ix2 k q) = m ((c : Thread nD τ).loc main_arg7) (ix2 q (lo k)) := by
  show V m c main_v4 (((cfg0.win 6).blk t).view.emb (ix2 k q)) = _
  rw [emb6]; exact w6_at m c k q

/-- Entry (k, q) of window 7's block, at every point. -/
theorem iblk7_at (c : Dev nD) (t : Fin cfg0.N) (k q : Fin 256) : iblk m c 7 t (ix2 k q) = m ((c : Thread nD τ).loc main_arg7) (ix2 q (hi k)) := by
  show V m c main_v7 (((cfg0.win 7).blk t).view.emb (ix2 k q)) = _
  rw [emb7]; exact w7_at m c k q

/-- Entry (k, q) of window 8's block, at every point. -/
theorem iblk8_at (c : Dev nD) (t : Fin cfg0.N) (k q : Fin 256) : iblk m c 8 t (ix2 k q) = m ((c : Thread nD τ).loc main_arg9) (ix2 q (lo k)) := by
  show V m c main_v10 (((cfg0.win 8).blk t).view.emb (ix2 k q)) = _
  rw [emb8]; exact w8_at m c k q

/-- Entry (k, q) of window 9's block, at every point. -/
theorem iblk9_at (c : Dev nD) (t : Fin cfg0.N) (k q : Fin 256) : iblk m c 9 t (ix2 k q) = m ((c : Thread nD τ).loc main_arg9) (ix2 q (hi k)) := by
  show V m c main_v13 (((cfg0.win 9).blk t).view.emb (ix2 k q)) = _
  rw [emb9]; exact w9_at m c k q

/-- Entry (k, q) of window 10's block, at every point. -/
theorem iblk10_at (c : Dev nD) (t : Fin cfg0.N) (k q : Fin 256) : iblk m c 10 t (ix2 k q) = m ((c : Thread nD τ).loc main_arg10) (ix2 q (lo k)) := by
  show V m c main_v16 (((cfg0.win 10).blk t).view.emb (ix2 k q)) = _
  rw [emb10]; exact w10_at m c k q

/-- Entry (k, q) of window 11's block, at every point. -/
theorem iblk11_at (c : Dev nD) (t : Fin cfg0.N) (k q : Fin 256) : iblk m c 11 t (ix2 k q) = m ((c : Thread nD τ).loc main_arg10) (ix2 q (hi k)) := by
  show V m c main_v19 (((cfg0.win 11).blk t).view.emb (ix2 k q)) = _
  rw [emb11]; exact w11_at m c k q

/-- Entry (0, q) of window 12's block, at every point. -/
theorem iblk12_at (c : Dev nD) (t : Fin cfg0.N) (q : Fin 256) :
    iblk m c 12 t (ix2 (0 : Fin 1) q) = m ((c : Thread nD τ).loc main_arg6) (ix1 q) := by
  show V m c main_v20 (((cfg0.win 12).blk t).view.emb (ix2 (0 : Fin 1) q)) = _
  rw [emb12]; exact w12_at m c q

/-- Entry (0, q) of window 13's block, at every point. -/
theorem iblk13_at (c : Dev nD) (t : Fin cfg0.N) (q : Fin 256) :
    iblk m c 13 t (ix2 (0 : Fin 1) q) = m ((c : Thread nD τ).loc main_arg8) (ix1 q) := by
  show V m c main_v21 (((cfg0.win 13).blk t).view.emb (ix2 (0 : Fin 1) q)) = _
  rw [emb13]; exact w13_at m c q

end Cert.Rwa.Staged

end
-- ==== Proof.Blocks.lean ====
/-
  From the blocks to the four result arrays.

  At point t of the launch the body stores, into each result's block t, a value that at entry (p, q) is the cell's new
  numerator, denominator, hidden value or running maximum of the inputs' rows t·1024 + p — exactly entry (t·1024 + p, q) of
  the corresponding whole-array function of the eleven arguments. The 16 blocks of 1024 rows tile the 16384 rows (row r lies
  in block r / 1024), every point writes its block back, and so after the launch each result array IS that function.
-/
import proofs.«109745_j65455301591398_1_alg».proof.Proof.Gen.KernelIdeal.Value
import proofs.«109745_j65455301591398_1_alg».proof.Proof.Body
import proofs.«109745_j65455301591398_1_alg».proof.Proof.Staged

set_option maxRecDepth 16384

noncomputable section

open scoped BigOperators

namespace Cert.Rwa.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Rwa

variable (m : (ℓ : Loc nD τ sig) → Buf (Elt Ideal) ℓ) (ρ : Dev nD → PrngReg)

/-- Every load and store of the body starts at the block's origin. -/
theorem origin : (![0, 0] : Fin 2 → Nat) = fun _ => 0 := funext fun a => by fin_cases a <;> rfl

/-! ## The running maximum -/

/-- What point `t` writes back is block `t` of the running maximum as a function of the arguments. -/
theorem flushed17_eq (c : Dev nD) (t : Fin cfg0.N) :
    (dats m 0 c).flushed 17 t
      = ((cfg0.win 17).blk t).view.read (Elt Ideal) (outMax (m ((c : Thread nD τ).loc main_arg0)) (m ((c : Thread nD τ).loc main_arg3)) (m ((c : Thread nD τ).loc main_arg4)) (m ((c : Thread nD τ).loc main_arg9)) (m ((c : Thread nD τ).loc main_arg10))) := by
  rw [Cert.KernelIdeal.Value.flushed17]
  unfold out0_17
  rw [View.canon_unit_zero origin]
  simp only [View.ld_unit_zero (S := S1024x256) origin, View.ld_unit_zero (S := S256x256) origin,
    View.ld_unit_zero (S := S1x256) origin]
  funext j
  obtain ⟨p, q, rfl⟩ : ∃ (p : Fin 1024) (q : Fin 256), j = ix2 p q := ⟨j 0, j 1, eq_ix2 j⟩
  show k0_pay2 (k0_pay9 (iblk m c 3 t)) (k0_pay12 (iblk m c 0 t) (iblk m c 3 t) (iblk m c 8 t) (iblk m c 9 t)) (k0_pay13 (iblk m c 0 t) (iblk m c 10 t)) (iblk m c 11 t) (iblk m c 4 t) (ix2 p q)
      = (outMax (m ((c : Thread nD τ).loc main_arg0)) (m ((c : Thread nD τ).loc main_arg3)) (m ((c : Thread nD τ).loc main_arg4)) (m ((c : Thread nD τ).loc main_arg9)) (m ((c : Thread nD τ).loc main_arg10))) (((cfg0.win 17).blk t).view.emb (ix2 p q))
  rw [Staged.emb17]
  refine (Body.max_at (iblk m c 0 t) (iblk m c 3 t) (iblk m c 4 t) (iblk m c 8 t) (iblk m c 9 t) (iblk m c 10 t) (iblk m c 11 t) p q).trans ?_
  simp only [Staged.iblk0_at, Staged.iblk3_at, Staged.iblk4_at, Staged.iblk8_at, Staged.iblk9_at, Staged.iblk10_at, Staged.iblk11_at]
  rfl

/-- An index of the array is in point `t`'s block iff each coordinate is in the block's range on its axis. -/
theorem mem_blk17 (t : Fin cfg0.N) (i : S16384x256.Idx) :
    i ∈ ((cfg0.win 17).blk t).view.set ↔ ∀ a : Fin 2, win0_17.index t a * S1024x256.size a ≤ (i a).val
      ∧ (i a).val < win0_17.index t a * S1024x256.size a + S1024x256.size a := by
  show i ∈ ((View.whole main_v22_3).slice (win0_17.rect t)).set ↔ _
  rw [View.set_slice_whole, Rect.mem_set_unit]
  exact Iff.rfl

/-- Row r lies in block r / 1024, and that point writes its block back. -/
theorem cover17 (i : S16384x256.Idx) :
    ∃ t : Fin cfg0.N, (cfg0.win 17).flush t = true ∧ i ∈ ((cfg0.win 17).blk t).view.set := by
  have hi0 : (i 0).val < 16384 := (i 0).isLt
  have hi1 : (i 1).val < 256 := (i 1).isLt
  have hN : cfg0.N = 16 := N_0
  let t : Fin cfg0.N := ⟨(i 0).val / 1024, by omega⟩
  have ht : t.val = (i 0).val / 1024 := rfl
  obtain ⟨e0, e1⟩ := Staged.idx17 t
  refine ⟨t, flush0_17 t, ?_⟩
  rw [mem_blk17]
  intro a
  match a with
  | ⟨0, _⟩ =>
    show win0_17.index t (0 : Fin 2) * 1024 ≤ (i 0).val ∧ (i 0).val < win0_17.index t (0 : Fin 2) * 1024 + 1024
    omega
  | ⟨1, _⟩ =>
    show win0_17.index t (1 : Fin 2) * 256 ≤ (i 1).val ∧ (i 1).val < win0_17.index t (1 : Fin 2) * 256 + 256
    omega

/-- After the launch the array is the running maximum as a function of the arguments. -/
theorem final17 (c : Dev nD) :
    (dats m 0 c).arrAt 17 cfg0.N = outMax (m ((c : Thread nD τ).loc main_arg0)) (m ((c : Thread nD τ).loc main_arg3)) (m ((c : Thread nD τ).loc main_arg4)) (m ((c : Thread nD τ).loc main_arg9)) (m ((c : Thread nD τ).loc main_arg10)) :=
  (dats m 0 c).arrAt_eq_of_cover 17 (outMax (m ((c : Thread nD τ).loc main_arg0)) (m ((c : Thread nD τ).loc main_arg3)) (m ((c : Thread nD τ).loc main_arg4)) (m ((c : Thread nD τ).loc main_arg9)) (m ((c : Thread nD τ).loc main_arg10)))
    (fun t _ => flushed17_eq m c t) cover17

/-! ## The denominator -/

/-- What point `t` writes back is block `t` of the denominator as a function of the arguments. -/
theorem flushed15_eq (c : Dev nD) (t : Fin cfg0.N) :
    (dats m 0 c).flushed 15 t
      = ((cfg0.win 15).blk t).view.read (Elt Ideal) (outDen (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10))) := by
  rw [Cert.KernelIdeal.Value.flushed15]
  unfold out0_15
  rw [View.canon_unit_zero origin]
  simp only [View.ld_unit_zero (S := S1024x256) origin, View.ld_unit_zero (S := S256x256) origin,
    View.ld_unit_zero (S := S1x256) origin]
  funext j
  obtain ⟨p, q, rfl⟩ : ∃ (p : Fin 1024) (q : Fin 256), j = ix2 p q := ⟨j 0, j 1, eq_ix2 j⟩
  show k0_pay6 (k0_pay9 (iblk m c 3 t)) (k0_pay12 (iblk m c 0 t) (iblk m c 3 t) (iblk m c 8 t) (iblk m c 9 t)) (k0_pay13 (iblk m c 0 t) (iblk m c 10 t)) (iblk m c 11 t) (iblk m c 4 t) (iblk m c 2 t) (ix2 p q)
      = (outDen (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10))) (((cfg0.win 15).blk t).view.emb (ix2 p q))
  rw [Staged.emb15]
  refine (Body.den_at (iblk m c 0 t) (iblk m c 2 t) (iblk m c 3 t) (iblk m c 4 t) (iblk m c 8 t) (iblk m c 9 t) (iblk m c 10 t) (iblk m c 11 t) p q).trans ?_
  simp only [Staged.iblk0_at, Staged.iblk2_at, Staged.iblk3_at, Staged.iblk4_at, Staged.iblk8_at, Staged.iblk9_at, Staged.iblk10_at, Staged.iblk11_at]
  rfl

/-- An index of the array is in point `t`'s block iff each coordinate is in the block's range on its axis. -/
theorem mem_blk15 (t : Fin cfg0.N) (i : S16384x256.Idx) :
    i ∈ ((cfg0.win 15).blk t).view.set ↔ ∀ a : Fin 2, win0_15.index t a * S1024x256.size a ≤ (i a).val
      ∧ (i a).val < win0_15.index t a * S1024x256.size a + S1024x256.size a := by
  show i ∈ ((View.whole main_v22_1).slice (win0_15.rect t)).set ↔ _
  rw [View.set_slice_whole, Rect.mem_set_unit]
  exact Iff.rfl

/-- Row r lies in block r / 1024, and that point writes its block back. -/
theorem cover15 (i : S16384x256.Idx) :
    ∃ t : Fin cfg0.N, (cfg0.win 15).flush t = true ∧ i ∈ ((cfg0.win 15).blk t).view.set := by
  have hi0 : (i 0).val < 16384 := (i 0).isLt
  have hi1 : (i 1).val < 256 := (i 1).isLt
  have hN : cfg0.N = 16 := N_0
  let t : Fin cfg0.N := ⟨(i 0).val / 1024, by omega⟩
  have ht : t.val = (i 0).val / 1024 := rfl
  obtain ⟨e0, e1⟩ := Staged.idx15 t
  refine ⟨t, flush0_15 t, ?_⟩
  rw [mem_blk15]
  intro a
  match a with
  | ⟨0, _⟩ =>
    show win0_15.index t (0 : Fin 2) * 1024 ≤ (i 0).val ∧ (i 0).val < win0_15.index t (0 : Fin 2) * 1024 + 1024
    omega
  | ⟨1, _⟩ =>
    show win0_15.index t (1 : Fin 2) * 256 ≤ (i 1).val ∧ (i 1).val < win0_15.index t (1 : Fin 2) * 256 + 256
    omega

/-- After the launch the array is the denominator as a function of the arguments. -/
theorem final15 (c : Dev nD) :
    (dats m 0 c).arrAt 15 cfg0.N = outDen (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)) :=
  (dats m 0 c).arrAt_eq_of_cover 15 (outDen (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10)))
    (fun t _ => flushed15_eq m c t) cover15

/-! ## The numerator -/

/-- What point `t` writes back is block `t` of the numerator as a function of the arguments. -/
theorem flushed14_eq (c : Dev nD) (t : Fin cfg0.N) :
    (dats m 0 c).flushed 14 t
      = ((cfg0.win 14).blk t).view.read (Elt Ideal) (outNum (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed14]
  unfold out0_14
  rw [View.canon_unit_zero origin]
  simp only [View.ld_unit_zero (S := S1024x256) origin, View.ld_unit_zero (S := S256x256) origin,
    View.ld_unit_zero (S := S1x256) origin]
  funext j
  obtain ⟨p, q, rfl⟩ : ∃ (p : Fin 1024) (q : Fin 256), j = ix2 p q := ⟨j 0, j 1, eq_ix2 j⟩
  show k0_pay5 (k0_pay9 (iblk m c 3 t)) (k0_pay10 (iblk m c 0 t) (iblk m c 5 t) (iblk m c 12 t)) (k0_pay11 (iblk m c 0 t) (iblk m c 3 t) (iblk m c 6 t) (iblk m c 7 t) (iblk m c 13 t)) (k0_pay12 (iblk m c 0 t) (iblk m c 3 t) (iblk m c 8 t) (iblk m c 9 t)) (k0_pay13 (iblk m c 0 t) (iblk m c 10 t)) (iblk m c 11 t) (iblk m c 4 t) (iblk m c 1 t) (ix2 p q)
      = (outNum (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((cfg0.win 14).blk t).view.emb (ix2 p q))
  rw [Staged.emb14]
  refine (Body.num_at (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  simp only [Staged.iblk0_at, Staged.iblk1_at, Staged.iblk3_at, Staged.iblk4_at, Staged.iblk5_at, Staged.iblk6_at, Staged.iblk7_at, Staged.iblk8_at, Staged.iblk9_at, Staged.iblk10_at, Staged.iblk11_at, Staged.iblk12_at, Staged.iblk13_at]
  rfl

/-- An index of the array is in point `t`'s block iff each coordinate is in the block's range on its axis. -/
theorem mem_blk14 (t : Fin cfg0.N) (i : S16384x256.Idx) :
    i ∈ ((cfg0.win 14).blk t).view.set ↔ ∀ a : Fin 2, win0_14.index t a * S1024x256.size a ≤ (i a).val
      ∧ (i a).val < win0_14.index t a * S1024x256.size a + S1024x256.size a := by
  show i ∈ ((View.whole main_v22_0).slice (win0_14.rect t)).set ↔ _
  rw [View.set_slice_whole, Rect.mem_set_unit]
  exact Iff.rfl

/-- Row r lies in block r / 1024, and that point writes its block back. -/
theorem cover14 (i : S16384x256.Idx) :
    ∃ t : Fin cfg0.N, (cfg0.win 14).flush t = true ∧ i ∈ ((cfg0.win 14).blk t).view.set := by
  have hi0 : (i 0).val < 16384 := (i 0).isLt
  have hi1 : (i 1).val < 256 := (i 1).isLt
  have hN : cfg0.N = 16 := N_0
  let t : Fin cfg0.N := ⟨(i 0).val / 1024, by omega⟩
  have ht : t.val = (i 0).val / 1024 := rfl
  obtain ⟨e0, e1⟩ := Staged.idx14 t
  refine ⟨t, flush0_14 t, ?_⟩
  rw [mem_blk14]
  intro a
  match a with
  | ⟨0, _⟩ =>
    show win0_14.index t (0 : Fin 2) * 1024 ≤ (i 0).val ∧ (i 0).val < win0_14.index t (0 : Fin 2) * 1024 + 1024
    omega
  | ⟨1, _⟩ =>
    show win0_14.index t (1 : Fin 2) * 256 ≤ (i 1).val ∧ (i 1).val < win0_14.index t (1 : Fin 2) * 256 + 256
    omega

/-- After the launch the array is the numerator as a function of the arguments. -/
theorem final14 (c : Dev nD) :
    (dats m 0 c).arrAt 14 cfg0.N = outNum (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 14 (outNum (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (fun t _ => flushed14_eq m c t) cover14

/-! ## The hidden value -/

/-- What point `t` writes back is block `t` of the hidden value as a function of the arguments. -/
theorem flushed16_eq (c : Dev nD) (t : Fin cfg0.N) :
    (dats m 0 c).flushed 16 t
      = ((cfg0.win 16).blk t).view.read (Elt Ideal) (outHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed16]
  unfold out0_16
  rw [View.canon_unit_zero origin]
  simp only [View.ld_unit_zero (S := S1024x256) origin, View.ld_unit_zero (S := S256x256) origin,
    View.ld_unit_zero (S := S1x256) origin]
  funext j
  obtain ⟨p, q, rfl⟩ : ∃ (p : Fin 1024) (q : Fin 256), j = ix2 p q := ⟨j 0, j 1, eq_ix2 j⟩
  show k0_pay7 (k0_pay9 (iblk m c 3 t)) (k0_pay10 (iblk m c 0 t) (iblk m c 5 t) (iblk m c 12 t)) (k0_pay11 (iblk m c 0 t) (iblk m c 3 t) (iblk m c 6 t) (iblk m c 7 t) (iblk m c 13 t)) (k0_pay12 (iblk m c 0 t) (iblk m c 3 t) (iblk m c 8 t) (iblk m c 9 t)) (k0_pay13 (iblk m c 0 t) (iblk m c 10 t)) (iblk m c 11 t) (iblk m c 4 t) (iblk m c 1 t) (iblk m c 2 t) (ix2 p q)
      = (outHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((cfg0.win 16).blk t).view.emb (ix2 p q))
  rw [Staged.emb16]
  refine (Body.hid_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  simp only [Staged.iblk0_at, Staged.iblk1_at, Staged.iblk2_at, Staged.iblk3_at, Staged.iblk4_at, Staged.iblk5_at, Staged.iblk6_at, Staged.iblk7_at, Staged.iblk8_at, Staged.iblk9_at, Staged.iblk10_at, Staged.iblk11_at, Staged.iblk12_at, Staged.iblk13_at]
  rfl

/-- An index of the array is in point `t`'s block iff each coordinate is in the block's range on its axis. -/
theorem mem_blk16 (t : Fin cfg0.N) (i : S16384x256.Idx) :
    i ∈ ((cfg0.win 16).blk t).view.set ↔ ∀ a : Fin 2, win0_16.index t a * S1024x256.size a ≤ (i a).val
      ∧ (i a).val < win0_16.index t a * S1024x256.size a + S1024x256.size a := by
  show i ∈ ((View.whole main_v22_2).slice (win0_16.rect t)).set ↔ _
  rw [View.set_slice_whole, Rect.mem_set_unit]
  exact Iff.rfl

/-- Row r lies in block r / 1024, and that point writes its block back. -/
theorem cover16 (i : S16384x256.Idx) :
    ∃ t : Fin cfg0.N, (cfg0.win 16).flush t = true ∧ i ∈ ((cfg0.win 16).blk t).view.set := by
  have hi0 : (i 0).val < 16384 := (i 0).isLt
  have hi1 : (i 1).val < 256 := (i 1).isLt
  have hN : cfg0.N = 16 := N_0
  let t : Fin cfg0.N := ⟨(i 0).val / 1024, by omega⟩
  have ht : t.val = (i 0).val / 1024 := rfl
  obtain ⟨e0, e1⟩ := Staged.idx16 t
  refine ⟨t, flush0_16 t, ?_⟩
  rw [mem_blk16]
  intro a
  match a with
  | ⟨0, _⟩ =>
    show win0_16.index t (0 : Fin 2) * 1024 ≤ (i 0).val ∧ (i 0).val < win0_16.index t (0 : Fin 2) * 1024 + 1024
    omega
  | ⟨1, _⟩ =>
    show win0_16.index t (1 : Fin 2) * 256 ≤ (i 1).val ∧ (i 1).val < win0_16.index t (1 : Fin 2) * 256 + 256
    omega

/-- After the launch the array is the hidden value as a function of the arguments. -/
theorem final16 (c : Dev nD) :
    (dats m 0 c).arrAt 16 cfg0.N = outHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 16 (outHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (fun t _ => flushed16_eq m c t) cover16

/-! ## The kernel's run -/

/-- Every weakly fair execution of the kernel's program terminates with its four results at the four functions of the
    arguments, and the arguments unchanged. -/
theorem run : θ_run defs (onTc (τ := τ) (main (F := Ideal))) ⟨m, fun _ => 0, ρ⟩ fun r => ∀ c : Dev nD,
      r.2.mem ((c : Thread nD τ).loc main_v22_0) = outNum (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v22_1) = outDen (m ((c : Thread nD τ).loc main_arg0)) (m ((c : Thread nD τ).loc main_arg2)) (m ((c : Thread nD τ).loc main_arg3)) (m ((c : Thread nD τ).loc main_arg4)) (m ((c : Thread nD τ).loc main_arg9)) (m ((c : Thread nD τ).loc main_arg10))
      ∧ r.2.mem ((c : Thread nD τ).loc main_v22_2) = outHid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v22_3) = outMax (m ((c : Thread nD τ).loc main_arg0)) (m ((c : Thread nD τ).loc main_arg3)) (m ((c : Thread nD τ).loc main_arg4)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final14 m c), (h c).2.1.trans (final15 m c),
      (h c).2.2.1.trans (final16 m c), (h c).2.2.2.1.trans (final17 m c), (h c).2.2.2.2⟩)
    (Cert.KernelIdeal.Value.run_blocks m ρ)

end Cert.Rwa.Blocks

end
-- ==== Proof.Reference.lean ====
/-
  The reference program computes one step of a recurrent weighted-average cell. Read at an index (r, c) on the extended
  reals, each of its four results is the corresponding function of the specification:

      the joined row [x(r,·) | h(r,·)] reads x on its first 256 columns and h on its last 256;
      a product of the joined row with a row of a [256,512] matrix is a sum over 512 columns, which is the sum of its
      two halves, so it is the specification's two-part sum;
      the decay factor exp(−1/(1 + exp(−p))) is exp(−σ(p)) because σ(p) is 1/(1 + exp(−p)) by definition and the float
      word 0x3F800000 is the number 1;
      everything after that is pointwise: a maximum, two exponential weights, two sums of products, a quotient and tanh.

  Nothing here needs finiteness; the one law used is that a sum over 512 indices is the sum of its halves.
-/
import proofs.«109745_j65455301591398_1_alg».proof.Proof.Gen.ReferenceIdeal.Read
import proofs.«109745_j65455301591398_1_alg».proof.Proof.Spec

noncomputable section

open scoped BigOperators

namespace Cert.Rwa.Ref

open Idealize.ShloMosaic Idealize.ShloMosaic.ValueIdx Cert.ReferenceIdeal Cert.ReferenceIdeal.Read Cert.Rwa

/-! ## The joined row [x | h] read at a column -/

/-- On the first 256 columns the joined array reads x at the same coordinates. -/
theorem cat_lo (x0 x3 : (⟨S16384x256, .f32⟩ : BufTy).Contents (Elt Ideal)) (r : Fin 16384) (k : Fin 256) :
    val_main_v0 (F := Ideal) x0 x3 (ix2 r (lo k)) = x0 (ix2 r k) := by
  unfold val_main_v0
  exact concatenate_pair_apply_left 1 x0 x3 _ (ix2 r (lo k)) rfl (ix2 r k)
    (fun b => match b with | ⟨0, _⟩ => rfl | ⟨1, _⟩ => rfl)

/-- On the last 256 columns the joined array reads h, the column index 256 less. -/
theorem cat_hi (x0 x3 : (⟨S16384x256, .f32⟩ : BufTy).Contents (Elt Ideal)) (r : Fin 16384) (k : Fin 256) :
    val_main_v0 (F := Ideal) x0 x3 (ix2 r (hi k)) = x3 (ix2 r k) := by
  unfold val_main_v0
  exact concatenate_pair_apply_right 1 x0 x3 _ (ix2 r (hi k)) rfl rfl (ix2 r k)
    (fun b hb => match b, hb with | ⟨0, _⟩, _ => rfl | ⟨1, _⟩, hb => absurd rfl hb)
    (by show k.val + 256 = 256 + k.val; omega)

/-- A product of the joined row with a row of a [256,512] matrix, summed over all 512 columns, is the sum of the two
    half products. -/
theorem joint_sum (x0 x3 : (⟨S16384x256, .f32⟩ : BufTy).Contents (Elt Ideal))
    (W : (⟨S256x512, .f32⟩ : BufTy).Contents (Elt Ideal)) (r : Fin 16384) (c : Fin 256) :
    (∑ k : Fin 512, val_main_v0 (F := Ideal) x0 x3 (ix2 r k) * W (ix2 c k)) = joint x0 x3 W r c := by
  have e := sum_halves (fun k : Fin 512 => val_main_v0 (F := Ideal) x0 x3 (ix2 r k) * W (ix2 c k))
  simp only [cat_lo, cat_hi] at e
  exact e

/-! ## The three products against the joined row -/

/-- a = [x | h]·Wa(c,·). -/
theorem dot_a (x0 x3 : (⟨S16384x256, .f32⟩ : BufTy).Contents (Elt Ideal))
    (x9 : (⟨S256x512, .f32⟩ : BufTy).Contents (Elt Ideal)) (i : S16384x256.Idx) :
    val_main_v12 (F := Ideal) x0 x3 x9 i = joint x0 x3 x9 (i 0) (i 1) := by
  have hl : ∀ k : Fin 512, lidx_main_v12 i k = ix2 (i 0) k := fun k => funext fun a => by
    match a with | ⟨0, _⟩ => rfl | ⟨1, _⟩ => rfl
  have hr : ∀ k : Fin 512, idx_main_v11 (ridx_main_v12 i k) = ix2 (i 1) k := fun k => funext fun a => by
    match a with | ⟨0, _⟩ => rfl | ⟨1, _⟩ => rfl
  rw [val_main_v12_apply]
  simp only [val_main_v11_apply, hl, hr]
  exact joint_sum x0 x3 x9 (i 0) (i 1)

/-- p = [x | h]·Wd(c,·). -/
theorem dot_p (x0 x3 : (⟨S16384x256, .f32⟩ : BufTy).Contents (Elt Ideal))
    (x10 : (⟨S256x512, .f32⟩ : BufTy).Contents (Elt Ideal)) (i : S16384x256.Idx) :
    val_main_v16 (F := Ideal) x0 x3 x10 i = joint x0 x3 x10 (i 0) (i 1) := by
  have hl : ∀ k : Fin 512, lidx_main_v16 i k = ix2 (i 0) k := fun k => funext fun a => by
    match a with | ⟨0, _⟩ => rfl | ⟨1, _⟩ => rfl
  have hr : ∀ k : Fin 512, idx_main_v15 (ridx_main_v16 i k) = ix2 (i 1) k := fun k => funext fun a => by
    match a with | ⟨0, _⟩ => rfl | ⟨1, _⟩ => rfl
  rw [val_main_v16_apply]
  simp only [val_main_v15_apply, hl, hr]
  exact joint_sum x0 x3 x10 (i 0) (i 1)

/-- The product inside g: [x | h]·Wg(c,·). -/
theorem dot_g (x0 x3 : (⟨S16384x256, .f32⟩ : BufTy).Contents (Elt Ideal))
    (x7 : (⟨S256x512, .f32⟩ : BufTy).Contents (Elt Ideal)) (i : S16384x256.Idx) :
    val_main_v7 (F := Ideal) x0 x3 x7 i = joint x0 x3 x7 (i 0) (i 1) := by
  have hl : ∀ k : Fin 512, lidx_main_v7 i k = ix2 (i 0) k := fun k => funext fun a => by
    match a with | ⟨0, _⟩ => rfl | ⟨1, _⟩ => rfl
  have hr : ∀ k : Fin 512, idx_main_v6 (ridx_main_v7 i k) = ix2 (i 1) k := fun k => funext fun a => by
    match a with | ⟨0, _⟩ => rfl | ⟨1, _⟩ => rfl
  rw [val_main_v7_apply]
  simp only [val_main_v6_apply, hl, hr]
  exact joint_sum x0 x3 x7 (i 0) (i 1)

/-! ## The decay factor and the running maximum -/

/-- e = exp(−1/(1 + exp(−p))), the two ones being the float word for 1. -/
theorem decay_read (x0 x3 : (⟨S16384x256, .f32⟩ : BufTy).Contents (Elt Ideal))
    (x10 : (⟨S256x512, .f32⟩ : BufTy).Contents (Elt Ideal)) (i : S16384x256.Idx) :
    val_main_v24 (F := Ideal) x0 x3 x10 i = decay (joint x0 x3 x10 (i 0) (i 1)) := by
  rw [val_main_v24_apply, val_main_v23_apply, val_main_v22_apply, val_main_v21_apply, val_main_v20_apply,
    val_main_v19_apply, val_main_v18_apply, val_main_v17_apply, dot_p]
  simp only [val_main_cst, val_main_cst_0, constant_apply, Ideal.hostUnary_exp_def, Ideal.hostNegf_def, Ideal.negf_def,
    Ideal.hostDivf_def, Ideal.addf_def, one_word]
  rfl

/-- M = max(amax·e, a). -/
theorem max_read (x0 x3 x4 : (⟨S16384x256, .f32⟩ : BufTy).Contents (Elt Ideal))
    (x9 x10 : (⟨S256x512, .f32⟩ : BufTy).Contents (Elt Ideal)) (i : S16384x256.Idx) :
    val_main_v26 (F := Ideal) x0 x3 x4 x9 x10 i
      = cellMax (x4 i) (joint x0 x3 x10 (i 0) (i 1)) (joint x0 x3 x9 (i 0) (i 1)) := by
  rw [val_main_v26_apply, val_main_v25_apply, decay_read, dot_a]
  rfl

/-- The reference's fourth result (stage main_v26) is the new running maximum. -/
theorem ref_max (x0 x3 x4 : (⟨S16384x256, .f32⟩ : BufTy).Contents (Elt Ideal))
    (x9 x10 : (⟨S256x512, .f32⟩ : BufTy).Contents (Elt Ideal)) :
    val_main_v26 (F := Ideal) x0 x3 x4 x9 x10 = outMax x0 x3 x4 x9 x10 := by
  funext i
  rw [max_read]
  rfl

/-! ## The two exponential weights -/

/-- exp(amax − M). -/
theorem wOld_read (x0 x3 x4 : (⟨S16384x256, .f32⟩ : BufTy).Contents (Elt Ideal))
    (x9 x10 : (⟨S256x512, .f32⟩ : BufTy).Contents (Elt Ideal)) (i : S16384x256.Idx) :
    val_main_v28 (F := Ideal) x0 x3 x4 x9 x10 i
      = Ideal.exp (x4 i - cellMax (x4 i) (joint x0 x3 x10 (i 0) (i 1)) (joint x0 x3 x9 (i 0) (i 1))) := by
  rw [val_main_v28_apply, val_main_v27_apply, max_read]
  rfl

/-- exp(a − M). -/
theorem wNew_read (x0 x3 x4 : (⟨S16384x256, .f32⟩ : BufTy).Contents (Elt Ideal))
    (x9 x10 : (⟨S256x512, .f32⟩ : BufTy).Contents (Elt Ideal)) (i : S16384x256.Idx) :
    val_main_v30 (F := Ideal) x0 x3 x4 x9 x10 i
      = Ideal.exp (joint x0 x3 x9 (i 0) (i 1)
          - cellMax (x4 i) (joint x0 x3 x10 (i 0) (i 1)) (joint x0 x3 x9 (i 0) (i 1))) := by
  rw [val_main_v30_apply, val_main_v29_apply, max_read, dot_a]
  rfl

/-! ## The denominator -/

/-- D = d·e·exp(amax − M) + exp(a − M). -/
theorem den_read (x0 x2 x3 x4 : (⟨S16384x256, .f32⟩ : BufTy).Contents (Elt Ideal))
    (x9 x10 : (⟨S256x512, .f32⟩ : BufTy).Contents (Elt Ideal)) (i : S16384x256.Idx) :
    val_main_v37 (F := Ideal) x0 x2 x3 x4 x9 x10 i
      = cellDen (x2 i) (x4 i) (joint x0 x3 x9 (i 0) (i 1)) (joint x0 x3 x10 (i 0) (i 1)) := by
  rw [val_main_v37_apply, val_main_v36_apply, val_main_v35_apply, decay_read, wOld_read, wNew_read]
  rfl

/-- The reference's second result (stage main_v37) is the new denominator. -/
theorem ref_den (x0 x2 x3 x4 : (⟨S16384x256, .f32⟩ : BufTy).Contents (Elt Ideal))
    (x9 x10 : (⟨S256x512, .f32⟩ : BufTy).Contents (Elt Ideal)) :
    val_main_v37 (F := Ideal) x0 x2 x3 x4 x9 x10 = outDen x0 x2 x3 x4 x9 x10 := by
  funext i
  rw [den_read]
  rfl

/-! ## The two affine maps u and g -/

/-- u = x(r,·)·Wu(c,·) + bu(c). -/
theorem u_read (x0 : (⟨S16384x256, .f32⟩ : BufTy).Contents (Elt Ideal))
    (x5 : (⟨S256x256, .f32⟩ : BufTy).Contents (Elt Ideal)) (x6 : (⟨S256, .f32⟩ : BufTy).Contents (Elt Ideal))
    (i : S16384x256.Idx) :
    val_main_v5 (F := Ideal) x0 x5 x6 i = preU x0 x5 x6 (i 0) (i 1) := by
  have hl : ∀ k : Fin 256, lidx_main_v2 i k = ix2 (i 0) k := fun k => funext fun a => by
    match a with | ⟨0, _⟩ => rfl | ⟨1, _⟩ => rfl
  have hr : ∀ k : Fin 256, idx_main_v1 (ridx_main_v2 i k) = ix2 (i 1) k := fun k => funext fun a => by
    match a with | ⟨0, _⟩ => rfl | ⟨1, _⟩ => rfl
  have hb : idx_main_v3 (idx_main_v4 i) = ix1 (i 1) := funext fun a => by
    match a with | ⟨0, _⟩ => rfl
  rw [val_main_v5_apply, val_main_v4_apply, val_main_v3_apply, val_main_v2_apply]
  simp only [val_main_v1_apply, hl, hr, hb]
  rfl

/-- g = [x | h]·Wg(c,·) + bg(c). -/
theorem g_read (x0 x3 : (⟨S16384x256, .f32⟩ : BufTy).Contents (Elt Ideal))
    (x7 : (⟨S256x512, .f32⟩ : BufTy).Contents (Elt Ideal)) (x8 : (⟨S256, .f32⟩ : BufTy).Contents (Elt Ideal))
    (i : S16384x256.Idx) :
    val_main_v10 (F := Ideal) x0 x3 x7 x8 i = preG x0 x3 x7 x8 (i 0) (i 1) := by
  have hb : idx_main_v8 (idx_main_v9 i) = ix1 (i 1) := funext fun a => by
    match a with | ⟨0, _⟩ => rfl
  rw [val_main_v10_apply, val_main_v9_apply, val_main_v8_apply, dot_g, hb]
  rfl

/-! ## The numerator and the hidden value -/

/-- N = n·e·exp(amax − M) + u·tanh(g)·exp(a − M). -/
theorem num_read (x0 x1 x3 x4 : (⟨S16384x256, .f32⟩ : BufTy).Contents (Elt Ideal))
    (x5 : (⟨S256x256, .f32⟩ : BufTy).Contents (Elt Ideal)) (x6 : (⟨S256, .f32⟩ : BufTy).Contents (Elt Ideal))
    (x7 : (⟨S256x512, .f32⟩ : BufTy).Contents (Elt Ideal)) (x8 : (⟨S256, .f32⟩ : BufTy).Contents (Elt Ideal))
    (x9 x10 : (⟨S256x512, .f32⟩ : BufTy).Contents (Elt Ideal)) (i : S16384x256.Idx) :
    val_main_v34 (F := Ideal) x0 x1 x3 x4 x5 x6 x7 x8 x9 x10 i
      = cellNum (x1 i) (x4 i) (preU x0 x5 x6 (i 0) (i 1)) (preG x0 x3 x7 x8 (i 0) (i 1))
          (joint x0 x3 x9 (i 0) (i 1)) (joint x0 x3 x10 (i 0) (i 1)) := by
  rw [val_main_v34_apply, val_main_v33_apply, val_main_v32_apply, val_main_v31_apply, val_main_v14_apply,
    val_main_v13_apply, decay_read, wOld_read, wNew_read, u_read, g_read]
  rfl

/-- The reference's first result (stage main_v34) is the new numerator. -/
theorem ref_num (x0 x1 x3 x4 : (⟨S16384x256, .f32⟩ : BufTy).Contents (Elt Ideal))
    (x5 : (⟨S256x256, .f32⟩ : BufTy).Contents (Elt Ideal)) (x6 : (⟨S256, .f32⟩ : BufTy).Contents (Elt Ideal))
    (x7 : (⟨S256x512, .f32⟩ : BufTy).Contents (Elt Ideal)) (x8 : (⟨S256, .f32⟩ : BufTy).Contents (Elt Ideal))
    (x9 x10 : (⟨S256x512, .f32⟩ : BufTy).Contents (Elt Ideal)) :
    val_main_v34 (F := Ideal) x0 x1 x3 x4 x5 x6 x7 x8 x9 x10 = outNum x0 x1 x3 x4 x5 x6 x7 x8 x9 x10 := by
  funext i
  rw [num_read]
  rfl

/-- The reference's third result (stage main_v39) is the new hidden value. -/
theorem ref_hid (x0 x1 x2 x3 x4 : (⟨S16384x256, .f32⟩ : BufTy).Contents (Elt Ideal))
    (x5 : (⟨S256x256, .f32⟩ : BufTy).Contents (Elt Ideal)) (x6 : (⟨S256, .f32⟩ : BufTy).Contents (Elt Ideal))
    (x7 : (⟨S256x512, .f32⟩ : BufTy).Contents (Elt Ideal)) (x8 : (⟨S256, .f32⟩ : BufTy).Contents (Elt Ideal))
    (x9 x10 : (⟨S256x512, .f32⟩ : BufTy).Contents (Elt Ideal)) :
    val_main_v39 (F := Ideal) x0 x1 x2 x3 x4 x5 x6 x7 x8 x9 x10 = outHid x0 x1 x2 x3 x4 x5 x6 x7 x8 x9 x10 := by
  funext i
  rw [val_main_v39_apply, val_main_v38_apply, num_read, den_read]
  rfl

end Cert.Rwa.Ref

end
-- ==== Proof.lean ====
/-
  One step of a recurrent weighted-average cell over 16384 independent rows: a kernel that streams blocks of 1024 rows
  against seven pre-transposed weight matrices, and a reference that joins x and h into rows of 512 and multiplies by the
  three [256,512] weight matrices whole.

  At the ideal values both compute, for every row r and column c, the same four numbers (Proof/Spec.lean):
  the new numerator, denominator, hidden value and running maximum of n(r,c), d(r,c), amax(r,c) and the four linear maps
  u, g, a, s of the rows x(r,·) and h(r,·).
    * The kernel forms each of g, a, s as a product with x's half of the weight plus a product with h's half; the
      reference forms one product over the 512 joined columns. A sum over 512 indices is the sum of its two halves — the only
      law used, and one that holds for all extended reals, so the precondition (finite inputs) is never opened.
    * The kernel's σ is one operation and its negation is 0 − σ(s); the reference spells σ(s) as 1 / (1 + exp(−s)) and
      negates it. At the ideal values σ is that quotient by definition, and 0 − y = −y on every extended real.
    * Rounding x, h and the weights to a narrower float format is the identity at the ideal values.
  The kernel's frames are the generated ones; the reference's frame is its generated run with the results dropped; the
  kernel's idealization rewrote nothing, so `preserves` is trivial; `algebraic` sets the kernel's run (Proof/Blocks.lean:
  each result array is its function of the arguments) beside the reference's run (Proof/Reference.lean: each result is the
  same function) on arguments that agree.
-/
import proofs.«109745_j65455301591398_1_alg».proof.Defs
import proofs.«109745_j65455301591398_1_alg».proof.Proof.Gen.Kernel
import proofs.«109745_j65455301591398_1_alg».proof.Proof.Gen.Kernel.Frame
import proofs.«109745_j65455301591398_1_alg».proof.Proof.Gen.KernelIdeal
import proofs.«109745_j65455301591398_1_alg».proof.Proof.Gen.KernelIdeal.Frame
import proofs.«109745_j65455301591398_1_alg».proof.Proof.Gen.KernelIdeal.Value
import proofs.«109745_j65455301591398_1_alg».proof.Proof.Gen.ReferenceIdeal
import proofs.«109745_j65455301591398_1_alg».proof.Proof.Gen.ReferenceIdeal.Run
import proofs.«109745_j65455301591398_1_alg».proof.Proof.Gen.ReferenceIdeal.Read
import proofs.«109745_j65455301591398_1_alg».proof.Proof.Gen.Pre_finite_inputs
import proofs.«109745_j65455301591398_1_alg».proof.Proof.Blocks
import proofs.«109745_j65455301591398_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference's run, its four results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The idealization rewrote no operation. -/
theorem preserves : Cert.preserves_Kernel_KernelIdeal := trivial

/-- From arguments that agree, the kernel's four result arrays and the reference's are the same four functions of
    them. -/
theorem algebraic : Cert.algebraic_KernelIdeal_ReferenceIdeal := by
  intro m ρ m' ρ' _ hagree
  refine ⟨_, _, _, _, Cert.Rwa.Blocks.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9, a10⟩ := hagree c
  obtain ⟨h0, h1, h2, h3, hrest⟩ := h c
  refine ⟨?_, ?_, ?_, ?_, hrest⟩
  · rw [h0, Cert.ReferenceIdeal.Read.val_main_v34_eq, Cert.Rwa.Ref.ref_num, a0, a1, a3, a4, a5, a6, a7, a8, a9, a10]
  · rw [h1, Cert.ReferenceIdeal.Read.val_main_v37_eq, Cert.Rwa.Ref.ref_den, a0, a2, a3, a4, a9, a10]
  · rw [h2, Cert.ReferenceIdeal.Read.val_main_v39_eq, Cert.Rwa.Ref.ref_hid, a0, a1, a2, a3, a4, a5, a6, a7, a8, a9, a10]
  · rw [h3, Cert.ReferenceIdeal.Read.val_main_v26_eq, Cert.Rwa.Ref.ref_max, a0, a3, a4, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
